-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg11 : FVec F S1600000 .f32) (main_v33 : IVec S_ 1) : IVec S_ 1 :=
  let main_v34 : FVec F S1600000 .f32 := Host.absf main_arg11
  let main_cst_12 : FVec F S_ .f32 := constant S_ .f32 0x7F800000#32
  let main_v35 : FVec F S1600000 .f32 := broadcastInDim S1600000 ![] bcast_S_S1600000 main_cst_12
  let main_v36 : IVec S1600000 1 := cmpf .olt main_v34 main_v35
  let main_c_13 : IVec S_ 1 := constantI S_ 1 1#1
  let main_v37 : IVec S_ 1 := (fun x v => Host.reduce IntOp.andi x v reducesTo_S1600000_S_d0 h_S_) main_v36 main_c_13
  let main_v38 : IVec S_ 1 := andi main_v33 main_v37
  main_v38

def fn_part1 {F : FTy → Type} [FloatOps F] (main_arg4 : FVec F S64x2 .f32) (main_arg5 : FVec F S2 .f32) (main_arg8 : FVec F S1600000 .f32) (main_arg11 : FVec F S1600000 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x2 .f32 := Host.absf main_arg4
  let main_cst_6 : FVec F S_ .f32 := constant S_ .f32 0x7F800000#32
  let main_v20 : FVec F S64x2 .f32 := broadcastInDim S64x2 ![] bcast_S_S64x2 main_cst_6
  let main_v21 : IVec S64x2 1 := cmpf .olt main_v19 main_v20
  let main_c_7 : IVec S_ 1 := constantI S_ 1 1#1
  let main_v22 : IVec S_ 1 := (fun x v => Host.reduce IntOp.andi x v reducesTo_S64x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S1600000 .f32 := Host.absf main_arg8
  let main_cst_10 : FVec F S_ .f32 := constant S_ .f32 0x7F800000#32
  let main_v30 : FVec F S1600000 .f32 := broadcastInDim S1600000 ![] bcast_S_S1600000 main_cst_10
  let main_v31 : IVec S1600000 1 := cmpf .olt main_v29 main_v30
  let main_c_11 : IVec S_ 1 := constantI S_ 1 1#1
  let main_v32 : IVec S_ 1 := (fun x v => Host.reduce IntOp.andi x v reducesTo_S1600000_S_d0 h_S_) main_v31 main_c_11
  let main_v33 : IVec S_ 1 := andi main_v28 main_v32
  fn_part2 (F := F) main_arg11 main_v33

def fn {F : FTy → Type} [FloatOps F] (main_arg0 : FVec F S100000x128 .f32) (main_arg1 : FVec F S128x64 .f32) (main_arg2 : FVec F S64 .f32) (main_arg3 : FVec F S64 .f32) (main_arg4 : FVec F S64x2 .f32) (main_arg5 : FVec F S2 .f32) (main_arg6 : IVec S1600000 32) (main_arg7 : IVec S1600000 32) (main_arg8 : FVec F S1600000 .f32) (main_arg9 : IVec S1600000 32) (main_arg10 : IVec S1600000 32) (main_arg11 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg8 main_arg11 main_v13 main_v16
-- ==== Kernel.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x64 : Shape := ⟨2, ![1, 64]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 95
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1600000, .i32⟩
  | .hbm, ⟨7, _⟩ => ⟨S1600000, .i32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000, .f32⟩
  | .hbm, ⟨33, _⟩ => ⟨S100000x1, .f32⟩
  | .hbm, ⟨34, _⟩ => ⟨S_, .f32⟩
  | .hbm, ⟨35, _⟩ => ⟨S1600000, .f32⟩
  | .hbm, ⟨36, _⟩ => ⟨S_, .f32⟩
  | .hbm, ⟨37, _⟩ => ⟨S100000, .f32⟩
  | .hbm, ⟨38, _⟩ => ⟨S1600000x1, .i32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S100000, .f32⟩
  | .hbm, ⟨43, _⟩ => ⟨S100000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S_, .f32⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S100000, .f32⟩
  | .hbm, ⟨53, _⟩ => ⟨S100000x1, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S1x64, .f32⟩
  | .hbm, ⟨58, _⟩ => ⟨S100000x64, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x64, .f32⟩
  | .hbm, ⟨68, _⟩ => ⟨S1600000x1, .f32⟩
  | .hbm, ⟨69, _⟩ => ⟨S1600000x64, .f32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S_, .i32⟩
  | .hbm, ⟨78, _⟩ => ⟨S1600000, .i32⟩
  | .hbm, ⟨79, _⟩ => ⟨S1600000, .i1⟩
  | .hbm, ⟨80, _⟩ => ⟨S_, .i32⟩
  | .hbm, ⟨81, _⟩ => ⟨S1600000, .i32⟩
  | .hbm, ⟨82, _⟩ => ⟨S1600000, .i32⟩
  | .hbm, ⟨83, _⟩ => ⟨S1600000, .i32⟩
  | .hbm, ⟨84, _⟩ => ⟨S1600000x1, .i32⟩
  | .hbm, ⟨85, _⟩ => ⟨S1600000x64, .f32⟩
  | .hbm, ⟨86, _⟩ => ⟨S1600000x1, .f32⟩
  | .hbm, ⟨87, _⟩ => ⟨S1600000x64, .f32⟩
  | .hbm, ⟨88, _⟩ => ⟨S1600000x64, .f32⟩
  | .hbm, ⟨89, _⟩ => ⟨S_, .f32⟩
  | .hbm, ⟨90, _⟩ => ⟨S100000x64, .f32⟩
  | .hbm, ⟨91, _⟩ => ⟨S1600000x1, .i32⟩
  | .hbm, ⟨92, _⟩ => ⟨S100000x64, .f32⟩
  | .hbm, ⟨93, _⟩ => ⟨S1x2, .f32⟩
  | .hbm, ⟨94, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S1x64, .f32⟩
  | .local _ .vmem, ⟨4, _⟩ => ⟨S5000x1, .f32⟩
  | .local _ .vmem, ⟨5, _⟩ => ⟨S5000x1, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x1, .f32⟩
  | .local _ .vmem, ⟨18, _⟩ => ⟨S5000x1, .f32⟩
  | .local _ .vmem, ⟨19, _⟩ => ⟨S64x2, .f32⟩
  | .local _ .vmem, ⟨20, _⟩ => ⟨S1x2, .f32⟩
  | .local _ .vmem, ⟨21, _⟩ => ⟨S5000x2, .f32⟩
  | .local _ .vmem, ⟨22, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_cst_5 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v17 : Ref sig .tc := ⟨.hbm, 43, rfl⟩
abbrev main_cst_7 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_cst_8 : Ref sig .tc := ⟨.hbm, 48, rfl⟩
abbrev main_call3_v0 : Ref sig .tc := ⟨.hbm, 49, rfl⟩
abbrev main_call3_v1 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c : Ref sig .tc := ⟨.hbm, 59, rfl⟩
abbrev main_v29 : Ref sig .tc := ⟨.hbm, 60, rfl⟩
abbrev main_v30 : Ref sig .tc := ⟨.hbm, 61, rfl⟩
abbrev main_c_9 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_10 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_v44 : Ref sig .tc := ⟨.hbm, 78, rfl⟩
abbrev main_v45 : Ref sig .tc := ⟨.hbm, 79, rfl⟩
abbrev main_c_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x2 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x2.size a ≤ S64x2.size a
  hwx2_2 : ∀ i : grid2.Coords, EltTy.bits .f32 = 32 ∨ (Rect.block (s := S64x2) S64x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2.size a ≤ S1x2.size a
  hwx2_3 : ∀ i : grid2.Coords, EltTy.bits .f32 = 32 ∨ (Rect.block (s := S1x2) S1x2.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x2.size a ≤ S100000x2.size a
  hwx2_4 : ∀ i : grid2.Coords, EltTy.bits .f32 = 32 ∨ (Rect.block (s := S100000x2) S5000x2.size (cc2_transform_4 i) (hinb2_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S5000x2.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S100000x2 : Shape := ⟨2, ![100000, 2]⟩
abbrev S1x2 : Shape := ⟨2, ![1, 2]⟩

abbrev nBuf : Space → Nat
  | .hbm => 110
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64x2, .f32⟩
  | .hbm, ⟨5, _⟩ => ⟨S2, .f32⟩
  | .hbm, ⟨6, _⟩ => ⟨S1600000, .i32⟩
  | .hbm, ⟨7, _⟩ => ⟨S1600000, .i32⟩
  | .hbm, ⟨8, _⟩ => ⟨S1600000, .f32⟩
  | .hbm, ⟨9, _⟩ => ⟨S1600000, .i32⟩
  | .hbm, ⟨10, _⟩ => ⟨S1600000, .i32⟩
  | .hbm, ⟨11, _⟩ => ⟨S1600000, .f32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x64, .f32⟩
  | .hbm, ⟨47, _⟩ => ⟨S1600000x1, .f32⟩
  | .hbm, ⟨48, _⟩ => ⟨S1600000x64, .f32⟩
  | .hbm, ⟨49, _⟩ => ⟨S1600000x64, .f32⟩
  | .hbm, ⟨50, _⟩ => ⟨S_, .f32⟩
  | .hbm, ⟨51, _⟩ => ⟨S100000x64, .f32⟩
  | .hbm, ⟨52, _⟩ => ⟨S1600000x1, .i32⟩
  | .hbm, ⟨53, _⟩ => ⟨S100000x64, .f32⟩
  | .hbm, ⟨54, _⟩ => ⟨S100000, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S1x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S1600000, .f32⟩
  | .hbm, ⟨63, _⟩ => ⟨S_, .f32⟩
  | .hbm, ⟨64, _⟩ => ⟨S100000, .f32⟩
  | .hbm, ⟨65, _⟩ => ⟨S1600000x1, .i32⟩
  | .hbm, ⟨66, _⟩ => ⟨S100000, .f32⟩
  | .hbm, ⟨67, _⟩ => ⟨S_, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S1600000x1, .i32⟩
  | .hbm, ⟨74, _⟩ => ⟨S100000, .f32⟩
  | .hbm, ⟨75, _⟩ => ⟨S_, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000, .f32⟩
  | .hbm, ⟨80, _⟩ => ⟨S100000x1, .f32⟩
  | .hbm, ⟨81, _⟩ => ⟨S100000x64, .f32⟩
  | .hbm, ⟨82, _⟩ => ⟨S100000x64, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x64, .f32⟩
  | .hbm, ⟨92, _⟩ => ⟨S1600000x1, .f32⟩
  | .hbm, ⟨93, _⟩ => ⟨S1600000x64, .f32⟩
  | .hbm, ⟨94, _⟩ => ⟨S1600000x64, .f32⟩
  | .hbm, ⟨95, _⟩ => ⟨S_, .f32⟩
  | .hbm, ⟨96, _⟩ => ⟨S100000x64, .f32⟩
  | .hbm, ⟨97, _⟩ => ⟨S1600000x1, .i32⟩
  | .hbm, ⟨98, _⟩ => ⟨S100000x64, .f32⟩
  | .hbm, ⟨99, _⟩ => ⟨S100000, .f32⟩
  | .hbm, ⟨100, _⟩ => ⟨S100000x1, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x2, .f32⟩
  | .hbm, ⟨107, _⟩ => ⟨S1x2, .f32⟩
  | .hbm, ⟨108, _⟩ => ⟨S100000x2, .f32⟩
  | .hbm, ⟨109, _⟩ => ⟨S100000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_call2_v0 : Ref sig .tc := ⟨.hbm, 68, rfl⟩
abbrev main_call2_v1 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_call3_v0 : Ref sig .tc := ⟨.hbm, 76, rfl⟩
abbrev main_call3_v1 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_11 : Ref sig .tc := ⟨.hbm, 83, rfl⟩
abbrev main_v50 : Ref sig .tc := ⟨.hbm, 84, rfl⟩
abbrev main_v51 : Ref sig .tc := ⟨.hbm, 85, rfl⟩
abbrev main_c_12 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_13 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call4_cst : Ref sig .tc := ⟨.hbm, 103, rfl⟩
abbrev main_call4_v0 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x2_S100000x2_1_0_0_1_n_n_wf : DotDims.WF S100000x64 S64x2 S100000x2 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.WholeRun.lean ====
/-
  The idealized kernel's whole run, with every unscoped buffer read at the end.
  @main is eleven stretches of host operations and three launches. The buffers' contents at each boundary are a fold
  through @main: after a host stretch its operations applied in order; after a launch its arrays at what the
  write-backs leave and every other buffer as entered. Here @main is run segment by segment from the launch memory
  and the final state is read against the last boundary's contents at EVERY unscoped buffer, the result array
  among them: the argument arrays and the result are then read off one statement.
-/
import proofs.«108735_j41970420418155_2_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds when @main starts: its unscoped buffers at the launch contents, its generator register at some
    state, and nothing owed. -/
abbrev start (c : Dev nD) : sProp 𝕄 :=
  iprop(StableHlo.held (c : Thread nD τ) (Pipeline.ucRefs τ sig) (W0 m ρ c) ∗ R c)

set_option backward.isDefEq.respectTransparency.types false in
/-- Every weakly fair execution of @main terminates, and in every final state each unscoped buffer of each core holds
    the last boundary's contents: the launch theorem for a list of segments, over the host stretches and the three
    launches in @main's order, the first thread state made from the launch memory and the last read back. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W14 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core takes a ghost resource of its own
      iintro H
      imodintro
      isplitl [H]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact H
      · iapply (show (BI.emp : sProp 𝕄) ⊢ bigSep Finset.univ (fun _ : Dev nD => (BI.emp : sProp 𝕄)) from by
          rw [BI.bigSep_emp_const])
        iempintro)
    (T₀ := start m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl⟩)
    (hinit := by
      -- core by core: the unscoped buffers at the launch memory are the buffers held at the first boundary's contents
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => ∀ b ∈ Pipeline.ucRefs τ sig, s.mem (((c : Thread nD τ)).1, b) = W14 m ρ c b)
    (hfin := fun c s' => by
      -- the buffers held at the last boundary's contents are what the final state has there
      iintro ⟨⟨Hbufs, -⟩, Hstate⟩
      unfold StableHlo.held
      imodintro
      iapply (pointsTo_read_all (Pipeline.ucRefs τ sig) (fun b => (((c : Thread nD τ)).1, b)) (W14 m ρ c) s')
      isplitl [Hbufs] <;> iassumption)
    (hQ := fun _ h => h)

end Cert.KernelIdeal.WholeRun

end
-- ==== Proof.Spec.lean ====
/-
  The three launches as whole-array functions of their arrays, index by index, over the extended reals.
  With n = 100000 nodes: the first launch is a linear layer with bias, each row then scaled by the node's scale;
  the second scales each row of the aggregated features and gates each lane; the third scales each row, clamps at
  zero from below and applies the last linear layer with bias. Scales are [n, 1] columns, biases and the gate
  [1, ·] rows, as the launches receive them.
-/
import proofs.«108735_j41970420418155_2_alg».proof.KernelIdeal
import Idealize.ShloMosaic.Lib.ValueIdx
import Idealize.ShloMosaic.PureOps.Ideal

noncomputable section

open Idealize.ShloMosaic Idealize.ShloMosaic.ValueIdx

namespace Cert.KernelIdeal.Spec

open Cert.KernelIdeal

/-- (x · W + b) scaled row by row: entry (r, j) is (∑ₖ x[r, k] · W[k, j] + b[0, j]) · s[r, 0]. -/
def lin1 (x : S100000x128.Idx → EReal) (W : S128x64.Idx → EReal) (b : S1x64.Idx → EReal) (s : S100000x1.Idx → EReal) :
    S100000x64.Idx → EReal :=
  fun i => ((∑ k : Fin 128, x (ix2 (i 0) k) * W (ix2 k (i 1))) + b (ix2 0 (i 1))) * s (ix2 (i 0) 0)

/-- Row `r`, lane `j` of the gated features: a[r, j] · s[r, 0] · k[0, j]. -/
def gate (a : S100000x64.Idx → EReal) (s : S100000x1.Idx → EReal) (k : S1x64.Idx → EReal) : S100000x64.Idx → EReal :=
  fun i => a i * s (ix2 (i 0) 0) * k (ix2 0 (i 1))

/-- max(a · s, 0) · W + b: entry (r, j) is ∑ₖ max(a[r, k] · s[r, 0], 0) · W[k, j] + b[0, j]. -/
def fin (a : S100000x64.Idx → EReal) (s : S100000x1.Idx → EReal) (W : S64x2.Idx → EReal) (b : S1x2.Idx → EReal) :
    S100000x2.Idx → EReal :=
  fun i => (∑ k : Fin 64, max (a (ix2 (i 0) k) * s (ix2 (i 0) 0)) (Ideal.ofBits .f32 0x00000000#32) * W (ix2 k (i 1)))
    + b (ix2 0 (i 1))

end Cert.KernelIdeal.Spec

end
-- ==== Proof.DegreeScales.lean ====
/-
  The degree scales, read off the host operations before the first launch.
  For each of the two graphs and each direction the program counts the edges at every node (a sum of ones over the
  edges whose endpoint is the node), clamps the count at 1 from below, takes the reciprocal square root and lays the
  100000 values out as a column. The host operations come in nine stretches (the clamp is an outlined function, a
  stretch of its own each time). First each stretch is read from ANY contents `V` it may find: what it computes, as its
  operations of `V`; what it does not write, unchanged. Then the stretches are chained from the launch memory.
-/
import proofs.«108735_j41970420418155_2_alg».proof.Proof.Gen.KernelIdeal.Frame
import Idealize.ShloMosaic.Lib.StableHlo.Run
import Idealize.ShloMosaic.PureOps.Ideal

set_option maxRecDepth 16384

open Idealize.ShloMosaic Idealize.ShloMosaic.TcCoe Idealize.SL.Sem Idealize.ShloMosaic.StableHlo

namespace Cert.KernelIdeal.Whole

open Cert.KernelIdeal Cert.KernelIdeal.Gen

noncomputable section

/-! ## The host functions -/

/-- One per edge. -/
def ones : FVec Ideal S1600000 .f32 := broadcastInDim S1600000 ![] bcast_S_S1600000 (constant S_ .f32 0x3F800000#32)

/-- The edge count at each node: the per-edge values `u` added up at the node `idx` names. -/
def cnt (idx : IVec S1600000 32) (u : FVec Ideal S1600000 .f32) : FVec Ideal S100000 .f32 :=
  Host.scatterAdd scatter_S100000_S1600000x1_S1600000_n_0_0_1 (broadcastInDim S100000 ![] bcast_S_S100000 (constant S_ .f32 0x00000000#32))
    (broadcastInDim S1600000x1 ![0] bcast_S1600000_S1600000x1_0 idx) u

/-- Clamped from below at a scalar bound repeated over the nodes. -/
def clampWith (bound : FVec Ideal S_ .f32) (x : FVec Ideal S100000 .f32) : FVec Ideal S100000 .f32 :=
  maximumf (broadcastInDim S100000 ![] bcast_S_S100000 (id bound)) x

/-- Clamped at 1 from below. -/
def clamp (x : FVec Ideal S100000 .f32) : FVec Ideal S100000 .f32 := clampWith (constant S_ .f32 0x3F800000#32) x

/-- The reciprocal square root, laid out as a column. -/
def col (x : FVec Ideal S100000 .f32) : FVec Ideal S100000x1 .f32 :=
  shapeCast S100000x1 (Host.rsqrt (F := Ideal) x) shapeCasts_S100000_S100000x1

/-- The node scale of an endpoint list: the reciprocal square root of the clamped edge count, as a column. -/
def scale (idx : IVec S1600000 32) : FVec Ideal S100000x1 .f32 := col (clamp (cnt idx ones))

/-- A 64-vector laid out as a row. -/
def row64 (v : FVec Ideal S64 .f32) : FVec Ideal S1x64 .f32 := shapeCast S1x64 v shapeCasts_S64_S1x64

/-! ## Each stretch, from any contents -/

section Stretches

variable (V : Valuation τ sig (Elt Ideal))

/-! ### What the stretches compute -/

theorem s0_count : after hostOps0 V (Proc.devRef .tc main_v3) = cnt (V (Proc.devRef .tc main_arg6)) ones := by after_results <;> rfl
theorem s0_ones : after hostOps0 V (Proc.devRef .tc main_v0) = ones := by after_results <;> rfl
theorem s0_one : after hostOps0 V (Proc.devRef .tc main_cst_1) = constant (F := Ideal) S_ .f32 0x3F800000#32 := by after_results <;> rfl
theorem s1_clamp : after hostOps0_1 V (Proc.devRef .tc main_v4) = clampWith (V (Proc.devRef .tc main_cst_1)) (V (Proc.devRef .tc main_v3)) := by
  after_results <;> rfl
theorem s2_count : after hostOps0_2 V (Proc.devRef .tc main_v7) = cnt (V (Proc.devRef .tc main_arg7)) (V (Proc.devRef .tc main_v0)) := by after_results <;> rfl
theorem s2_one : after hostOps0_2 V (Proc.devRef .tc main_cst_3) = constant (F := Ideal) S_ .f32 0x3F800000#32 := by after_results <;> rfl
theorem s3_clamp : after hostOps0_3 V (Proc.devRef .tc main_v8) = clampWith (V (Proc.devRef .tc main_cst_3)) (V (Proc.devRef .tc main_v7)) := by
  after_results <;> rfl
theorem s4_col_src1 : after hostOps0_4 V (Proc.devRef .tc main_v10) = col (V (Proc.devRef .tc main_v4)) := by after_results <;> rfl
theorem s4_col_dst1 : after hostOps0_4 V (Proc.devRef .tc main_v12) = col (V (Proc.devRef .tc main_v8)) := by after_results <;> rfl
theorem s4_count : after hostOps0_4 V (Proc.devRef .tc main_v16) = cnt (V (Proc.devRef .tc main_arg9)) ones := by after_results <;> rfl
theorem s4_ones : after hostOps0_4 V (Proc.devRef .tc main_v13) = ones := by after_results <;> rfl
theorem s4_one : after hostOps0_4 V (Proc.devRef .tc main_cst_6) = constant (F := Ideal) S_ .f32 0x3F800000#32 := by after_results <;> rfl
theorem s5_clamp : after hostOps0_5 V (Proc.devRef .tc main_v17) = clampWith (V (Proc.devRef .tc main_cst_6)) (V (Proc.devRef .tc main_v16)) := by
  after_results <;> rfl
theorem s6_count : after hostOps0_6 V (Proc.devRef .tc main_v20) = cnt (V (Proc.devRef .tc main_arg10)) (V (Proc.devRef .tc main_v13)) := by after_results <;> rfl
theorem s6_one : after hostOps0_6 V (Proc.devRef .tc main_cst_8) = constant (F := Ideal) S_ .f32 0x3F800000#32 := by after_results <;> rfl
theorem s7_clamp : after hostOps0_7 V (Proc.devRef .tc main_v21) = clampWith (V (Proc.devRef .tc main_cst_8)) (V (Proc.devRef .tc main_v20)) := by
  after_results <;> rfl
theorem s8_col_dst2 : after hostOps0_8 V (Proc.devRef .tc main_v25) = col (V (Proc.devRef .tc main_v21)) := by after_results <;> rfl
theorem s8_prod : after hostOps0_8 V (Proc.devRef .tc main_v26) = mulf (F := Ideal) (V (Proc.devRef .tc main_v12)) (col (V (Proc.devRef .tc main_v17))) := by
  after_results <;> rfl
theorem s8_row : after hostOps0_8 V (Proc.devRef .tc main_v27) = row64 (V (Proc.devRef .tc main_arg2)) := by after_results <;> rfl

/-! ### What the stretches leave alone -/

theorem k23_v4 : after hostOps0_3 (after hostOps0_2 (V)) (Proc.devRef .tc main_v4) = V (Proc.devRef .tc main_v4) := by after_results <;> rfl
theorem k5678_v10 : after hostOps0_8 (after hostOps0_7 (after hostOps0_6 (after hostOps0_5 (V)))) (Proc.devRef .tc main_v10) = V (Proc.devRef .tc main_v10) := by after_results <;> rfl
theorem k1_v0 : after hostOps0_1 (V) (Proc.devRef .tc main_v0) = V (Proc.devRef .tc main_v0) := by after_results <;> rfl
theorem k01_arg7 : after hostOps0_1 (after hostOps0 (V)) (Proc.devRef .tc main_arg7) = V (Proc.devRef .tc main_arg7) := by after_results <;> rfl
theorem k567_v12 : after hostOps0_7 (after hostOps0_6 (after hostOps0_5 (V))) (Proc.devRef .tc main_v12) = V (Proc.devRef .tc main_v12) := by after_results <;> rfl
theorem k0123_arg9 : after hostOps0_3 (after hostOps0_2 (after hostOps0_1 (after hostOps0 (V)))) (Proc.devRef .tc main_arg9) = V (Proc.devRef .tc main_arg9) := by after_results <;> rfl
theorem k67_v17 : after hostOps0_7 (after hostOps0_6 (V)) (Proc.devRef .tc main_v17) = V (Proc.devRef .tc main_v17) := by after_results <;> rfl
theorem k5_v13 : after hostOps0_5 (V) (Proc.devRef .tc main_v13) = V (Proc.devRef .tc main_v13) := by after_results <;> rfl
theorem k012345_arg10 : after hostOps0_5 (after hostOps0_4 (after hostOps0_3 (after hostOps0_2 (after hostOps0_1 (after hostOps0 (V)))))) (Proc.devRef .tc main_arg10) = V (Proc.devRef .tc main_arg10) := by after_results <;> rfl
theorem k01234567_arg2 : after hostOps0_7 (after hostOps0_6 (after hostOps0_5 (after hostOps0_4 (after hostOps0_3 (after hostOps0_2 (after hostOps0_1 (after hostOps0 (V)))))))) (Proc.devRef .tc main_arg2) = V (Proc.devRef .tc main_arg2) := by after_results <;> rfl
theorem kall_arg0 : after hostOps0_8 (after hostOps0_7 (after hostOps0_6 (after hostOps0_5 (after hostOps0_4 (after hostOps0_3 (after hostOps0_2 (after hostOps0_1 (after hostOps0 (V))))))))) (Proc.devRef .tc main_arg0) = V (Proc.devRef .tc main_arg0) := by after_results <;> rfl
theorem kall_arg1 : after hostOps0_8 (after hostOps0_7 (after hostOps0_6 (after hostOps0_5 (after hostOps0_4 (after hostOps0_3 (after hostOps0_2 (after hostOps0_1 (after hostOps0 (V))))))))) (Proc.devRef .tc main_arg1) = V (Proc.devRef .tc main_arg1) := by after_results <;> rfl
theorem kall_arg3 : after hostOps0_8 (after hostOps0_7 (after hostOps0_6 (after hostOps0_5 (after hostOps0_4 (after hostOps0_3 (after hostOps0_2 (after hostOps0_1 (after hostOps0 (V))))))))) (Proc.devRef .tc main_arg3) = V (Proc.devRef .tc main_arg3) := by after_results <;> rfl
theorem kall_arg4 : after hostOps0_8 (after hostOps0_7 (after hostOps0_6 (after hostOps0_5 (after hostOps0_4 (after hostOps0_3 (after hostOps0_2 (after hostOps0_1 (after hostOps0 (V))))))))) (Proc.devRef .tc main_arg4) = V (Proc.devRef .tc main_arg4) := by after_results <;> rfl
theorem kall_arg5 : after hostOps0_8 (after hostOps0_7 (after hostOps0_6 (after hostOps0_5 (after hostOps0_4 (after hostOps0_3 (after hostOps0_2 (after hostOps0_1 (after hostOps0 (V))))))))) (Proc.devRef .tc main_arg5) = V (Proc.devRef .tc main_arg5) := by after_results <;> rfl
theorem kall_arg6 : after hostOps0_8 (after hostOps0_7 (after hostOps0_6 (after hostOps0_5 (after hostOps0_4 (after hostOps0_3 (after hostOps0_2 (after hostOps0_1 (after hostOps0 (V))))))))) (Proc.devRef .tc main_arg6) = V (Proc.devRef .tc main_arg6) := by after_results <;> rfl
theorem kall_arg7 : after hostOps0_8 (after hostOps0_7 (after hostOps0_6 (after hostOps0_5 (after hostOps0_4 (after hostOps0_3 (after hostOps0_2 (after hostOps0_1 (after hostOps0 (V))))))))) (Proc.devRef .tc main_arg7) = V (Proc.devRef .tc main_arg7) := by after_results <;> rfl
theorem kall_arg8 : after hostOps0_8 (after hostOps0_7 (after hostOps0_6 (after hostOps0_5 (after hostOps0_4 (after hostOps0_3 (after hostOps0_2 (after hostOps0_1 (after hostOps0 (V))))))))) (Proc.devRef .tc main_arg8) = V (Proc.devRef .tc main_arg8) := by after_results <;> rfl
theorem kall_arg9 : after hostOps0_8 (after hostOps0_7 (after hostOps0_6 (after hostOps0_5 (after hostOps0_4 (after hostOps0_3 (after hostOps0_2 (after hostOps0_1 (after hostOps0 (V))))))))) (Proc.devRef .tc main_arg9) = V (Proc.devRef .tc main_arg9) := by after_results <;> rfl
theorem kall_arg10 : after hostOps0_8 (after hostOps0_7 (after hostOps0_6 (after hostOps0_5 (after hostOps0_4 (after hostOps0_3 (after hostOps0_2 (after hostOps0_1 (after hostOps0 (V))))))))) (Proc.devRef .tc main_arg10) = V (Proc.devRef .tc main_arg10) := by after_results <;> rfl
theorem kall_arg11 : after hostOps0_8 (after hostOps0_7 (after hostOps0_6 (after hostOps0_5 (after hostOps0_4 (after hostOps0_3 (after hostOps0_2 (after hostOps0_1 (after hostOps0 (V))))))))) (Proc.devRef .tc main_arg11) = V (Proc.devRef .tc main_arg11) := by after_results <;> rfl

end Stretches

/-! ## Chained from the launch memory -/

variable (m : (ℓ : Loc nD τ sig) → Buf (Elt Ideal) ℓ) (ρ : Dev nD → PrngReg)

/-! ### First graph, sources: the scale the first launch applies -/

theorem src1_count (c : Dev nD) : W1 m ρ c (Proc.devRef .tc main_v3) = cnt (m ((c : Thread nD τ).loc main_arg6)) ones := s0_count (W0 m ρ c)
theorem src1_one (c : Dev nD) : W1 m ρ c (Proc.devRef .tc main_cst_1) = constant (F := Ideal) S_ .f32 0x3F800000#32 := s0_one (W0 m ρ c)
theorem src1_clamp (c : Dev nD) : W2 m ρ c (Proc.devRef .tc main_v4) = clamp (W1 m ρ c (Proc.devRef .tc main_v3)) :=
  (s1_clamp (W1 m ρ c)).trans (by rw [src1_one]; rfl)

/-- Entering the first launch, its scale column is the scale of the first graph's sources. -/
theorem at9_v10 (c : Dev nD) : W9 m ρ c (Proc.devRef .tc main_v10) = scale (m ((c : Thread nD τ).loc main_arg6)) :=
  (k5678_v10 (W5 m ρ c)).trans <| (s4_col_src1 (W4 m ρ c)).trans <| congrArg col <|
    (k23_v4 (W2 m ρ c)).trans <| (src1_clamp m ρ c).trans <| congrArg clamp (src1_count m ρ c)

/-! ### First graph, targets -/

theorem dst1_count (c : Dev nD) : W3 m ρ c (Proc.devRef .tc main_v7) = cnt (m ((c : Thread nD τ).loc main_arg7)) ones :=
  (s2_count (W2 m ρ c)).trans (by
    rw [show W2 m ρ c (Proc.devRef .tc main_arg7) = m ((c : Thread nD τ).loc main_arg7) from k01_arg7 (W0 m ρ c),
      show W2 m ρ c (Proc.devRef .tc main_v0) = ones from (k1_v0 (W1 m ρ c)).trans (s0_ones (W0 m ρ c))])
theorem dst1_one (c : Dev nD) : W3 m ρ c (Proc.devRef .tc main_cst_3) = constant (F := Ideal) S_ .f32 0x3F800000#32 := s2_one (W2 m ρ c)
theorem dst1_clamp (c : Dev nD) : W4 m ρ c (Proc.devRef .tc main_v8) = clamp (W3 m ρ c (Proc.devRef .tc main_v7)) :=
  (s3_clamp (W3 m ρ c)).trans (by rw [dst1_one]; rfl)
theorem dst1_col (c : Dev nD) : W8 m ρ c (Proc.devRef .tc main_v12) = scale (m ((c : Thread nD τ).loc main_arg7)) :=
  (k567_v12 (W5 m ρ c)).trans <| (s4_col_dst1 (W4 m ρ c)).trans <| congrArg col <|
    (dst1_clamp m ρ c).trans <| congrArg clamp (dst1_count m ρ c)

/-! ### Second graph, sources -/

theorem src2_count (c : Dev nD) : W5 m ρ c (Proc.devRef .tc main_v16) = cnt (m ((c : Thread nD τ).loc main_arg9)) ones :=
  (s4_count (W4 m ρ c)).trans (by rw [show W4 m ρ c (Proc.devRef .tc main_arg9) = m ((c : Thread nD τ).loc main_arg9) from k0123_arg9 (W0 m ρ c)])
theorem src2_one (c : Dev nD) : W5 m ρ c (Proc.devRef .tc main_cst_6) = constant (F := Ideal) S_ .f32 0x3F800000#32 := s4_one (W4 m ρ c)
theorem src2_clamp (c : Dev nD) : W6 m ρ c (Proc.devRef .tc main_v17) = clamp (W5 m ρ c (Proc.devRef .tc main_v16)) :=
  (s5_clamp (W5 m ρ c)).trans (by rw [src2_one]; rfl)
theorem src2_deg (c : Dev nD) : W8 m ρ c (Proc.devRef .tc main_v17) = clamp (cnt (m ((c : Thread nD τ).loc main_arg9)) ones) :=
  (k67_v17 (W6 m ρ c)).trans <| (src2_clamp m ρ c).trans <| congrArg clamp (src2_count m ρ c)

/-! ### Second graph, targets -/

theorem dst2_count (c : Dev nD) : W7 m ρ c (Proc.devRef .tc main_v20) = cnt (m ((c : Thread nD τ).loc main_arg10)) ones :=
  (s6_count (W6 m ρ c)).trans (by
    rw [show W6 m ρ c (Proc.devRef .tc main_arg10) = m ((c : Thread nD τ).loc main_arg10) from k012345_arg10 (W0 m ρ c),
      show W6 m ρ c (Proc.devRef .tc main_v13) = ones from (k5_v13 (W5 m ρ c)).trans (s4_ones (W4 m ρ c))])
theorem dst2_one (c : Dev nD) : W7 m ρ c (Proc.devRef .tc main_cst_8) = constant (F := Ideal) S_ .f32 0x3F800000#32 := s6_one (W6 m ρ c)
theorem dst2_clamp (c : Dev nD) : W8 m ρ c (Proc.devRef .tc main_v21) = clamp (W7 m ρ c (Proc.devRef .tc main_v20)) :=
  (s7_clamp (W7 m ρ c)).trans (by rw [dst2_one]; rfl)

/-! ### The last stretch: the remaining column, the combined scale, the bias as a row -/

/-- Entering the first launch, the last launch's scale column is the scale of the second graph's targets. -/
theorem at9_v25 (c : Dev nD) : W9 m ρ c (Proc.devRef .tc main_v25) = scale (m ((c : Thread nD τ).loc main_arg10)) :=
  (s8_col_dst2 (W8 m ρ c)).trans <| congrArg col <| (dst2_clamp m ρ c).trans <| congrArg clamp (dst2_count m ρ c)

/-- The second launch's scale column: the first graph's target scale times the second graph's source scale. -/
theorem at9_v26 (c : Dev nD) : W9 m ρ c (Proc.devRef .tc main_v26)
    = mulf (F := Ideal) (scale (m ((c : Thread nD τ).loc main_arg7))) (scale (m ((c : Thread nD τ).loc main_arg9))) :=
  (s8_prod (W8 m ρ c)).trans (by rw [dst1_col, src2_deg]; rfl)

/-- The first launch's bias row. -/
theorem at9_v27 (c : Dev nD) : W9 m ρ c (Proc.devRef .tc main_v27) = row64 (m ((c : Thread nD τ).loc main_arg2)) :=
  (s8_row (W8 m ρ c)).trans (congrArg row64 (k01234567_arg2 (W0 m ρ c)))

/-! ### The arguments the later stages read are as launched -/

theorem at9_arg0 (c : Dev nD) : W9 m ρ c (Proc.devRef .tc main_arg0) = m ((c : Thread nD τ).loc main_arg0) := kall_arg0 (W0 m ρ c)
theorem at9_arg1 (c : Dev nD) : W9 m ρ c (Proc.devRef .tc main_arg1) = m ((c : Thread nD τ).loc main_arg1) := kall_arg1 (W0 m ρ c)
theorem at9_arg3 (c : Dev nD) : W9 m ρ c (Proc.devRef .tc main_arg3) = m ((c : Thread nD τ).loc main_arg3) := kall_arg3 (W0 m ρ c)
theorem at9_arg4 (c : Dev nD) : W9 m ρ c (Proc.devRef .tc main_arg4) = m ((c : Thread nD τ).loc main_arg4) := kall_arg4 (W0 m ρ c)
theorem at9_arg5 (c : Dev nD) : W9 m ρ c (Proc.devRef .tc main_arg5) = m ((c : Thread nD τ).loc main_arg5) := kall_arg5 (W0 m ρ c)
theorem at9_arg6 (c : Dev nD) : W9 m ρ c (Proc.devRef .tc main_arg6) = m ((c : Thread nD τ).loc main_arg6) := kall_arg6 (W0 m ρ c)
theorem at9_arg7 (c : Dev nD) : W9 m ρ c (Proc.devRef .tc main_arg7) = m ((c : Thread nD τ).loc main_arg7) := kall_arg7 (W0 m ρ c)
theorem at9_arg8 (c : Dev nD) : W9 m ρ c (Proc.devRef .tc main_arg8) = m ((c : Thread nD τ).loc main_arg8) := kall_arg8 (W0 m ρ c)
theorem at9_arg9 (c : Dev nD) : W9 m ρ c (Proc.devRef .tc main_arg9) = m ((c : Thread nD τ).loc main_arg9) := kall_arg9 (W0 m ρ c)
theorem at9_arg10 (c : Dev nD) : W9 m ρ c (Proc.devRef .tc main_arg10) = m ((c : Thread nD τ).loc main_arg10) := kall_arg10 (W0 m ρ c)
theorem at9_arg11 (c : Dev nD) : W9 m ρ c (Proc.devRef .tc main_arg11) = m ((c : Thread nD τ).loc main_arg11) := kall_arg11 (W0 m ρ c)

end

end Cert.KernelIdeal.Whole
-- ==== Proof.LibKeepdims.lean ====
/-
  Two layout readings for row statistics kept as a column (the `keepdims=True` forms): a length-a vector viewed as an
  [a, 1] column, and an [a, 1] column repeated along its unit axis to [a, b]. Both read one element of the operand.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.ValueIdx
-- ==== Proof.BlockProducts.lean ====
/-
  The two matrix products the launches compute on a block, read at an element. A product of a [5000, K] block with a
  [K, N] matrix into a zero accumulator is, at row `p` and column `q`, the sum over `k < K` of l[p, k] · r[k, q]:
  the product's one contracted axis is re-indexed by `k`, and the operand positions at output (p, q) and contraction
  index k are (p, k) and (k, q).
-/
import proofs.«108735_j41970420418155_2_alg».proof.Proof.Gen.KernelIdeal
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.BlockProducts

open Cert.KernelIdeal

/-! ## [5000, 128] · [128, 64] -/

abbrev D1 : DotDims S5000x128 S128x64 S5000x64 := dot_S5000x128_S128x64_S5000x64_1_0_0_1_n_n

theorem D1_lhs0 (i : S5000x64.Idx) (u : D1.contr.Idx) : (D1.lhsIdx i u 0).val = (i 0).val := by
  unfold DotDims.lhsIdx
  rw [dif_neg (show ¬(0 : Fin S5000x128.rank) ∈ D1.lhsBatch by decide), dif_pos (show (0 : Fin S5000x128.rank) ∈ D1.lhsNonContracting by decide)]
  rfl
theorem D1_lhs1 (i : S5000x64.Idx) (u : D1.contr.Idx) : (D1.lhsIdx i u 1).val = (u ⟨0, by decide⟩).val :=
  D1.lhsIdx_val_of_single rfl i u
theorem D1_rhs0 (i : S5000x64.Idx) (u : D1.contr.Idx) : (D1.rhsIdx i u 0).val = (u ⟨0, by decide⟩).val :=
  D1.rhsIdx_val_of_single rfl i u
theorem D1_rhs1 (i : S5000x64.Idx) (u : D1.contr.Idx) : (D1.rhsIdx i u 1).val = (i 1).val := by
  unfold DotDims.rhsIdx
  rw [dif_neg (show ¬(1 : Fin S128x64.rank) ∈ D1.rhsBatch by decide), dif_pos (show (1 : Fin S128x64.rank) ∈ D1.rhsNonContracting by decide)]
  rfl

/-- Row `p`, column `q` of the first launch's product: the sum over the 128 input features. -/
theorem product1_apply {φ₁ φ₂ : FTy} (l : FVec Ideal S5000x128 φ₁) (r : FVec Ideal S128x64 φ₂) (p : Fin 5000) (q : Fin 64) :
    matmul (F := Ideal) D1 none l r (constant S5000x64 .f32 0x00000000#32) (ix2 p q) = ∑ k : Fin 128, l (ix2 p k) * r (ix2 k q) := by
  show FloatOps.matmul D1 none l r (constant S5000x64 .f32 0x00000000#32) (ix2 p q) = _
  rw [Ideal.matmul_constant_zero_apply, ← Equiv.sum_comp (contrEquiv1 D1 128 rfl rfl).symm]
  refine Finset.sum_congr rfl fun k _ => ?_
  have hk := contrEquiv1_symm_val D1 128 rfl rfl k
  have el : D1.lhsIdx (ix2 p q) ((contrEquiv1 D1 128 rfl rfl).symm k) = ix2 p k := funext fun a => Fin.ext (by
    match a with
    | ⟨0, _⟩ => exact D1_lhs0 _ _
    | ⟨1, _⟩ => exact (D1_lhs1 _ _).trans hk)
  have er : D1.rhsIdx (ix2 p q) ((contrEquiv1 D1 128 rfl rfl).symm k) = ix2 k q := funext fun a => Fin.ext (by
    match a with
    | ⟨0, _⟩ => exact (D1_rhs0 _ _).trans hk
    | ⟨1, _⟩ => exact D1_rhs1 _ _)
  rw [el, er]

/-! ## [5000, 64] · [64, 2] -/

abbrev D3 : DotDims S5000x64 S64x2 S5000x2 := dot_S5000x64_S64x2_S5000x2_1_0_0_1_n_n

theorem D3_lhs0 (i : S5000x2.Idx) (u : D3.contr.Idx) : (D3.lhsIdx i u 0).val = (i 0).val := by
  unfold DotDims.lhsIdx
  rw [dif_neg (show ¬(0 : Fin S5000x64.rank) ∈ D3.lhsBatch by decide), dif_pos (show (0 : Fin S5000x64.rank) ∈ D3.lhsNonContracting by decide)]
  rfl
theorem D3_lhs1 (i : S5000x2.Idx) (u : D3.contr.Idx) : (D3.lhsIdx i u 1).val = (u ⟨0, by decide⟩).val :=
  D3.lhsIdx_val_of_single rfl i u
theorem D3_rhs0 (i : S5000x2.Idx) (u : D3.contr.Idx) : (D3.rhsIdx i u 0).val = (u ⟨0, by decide⟩).val :=
  D3.rhsIdx_val_of_single rfl i u
theorem D3_rhs1 (i : S5000x2.Idx) (u : D3.contr.Idx) : (D3.rhsIdx i u 1).val = (i 1).val := by
  unfold DotDims.rhsIdx
  rw [dif_neg (show ¬(1 : Fin S64x2.rank) ∈ D3.rhsBatch by decide), dif_pos (show (1 : Fin S64x2.rank) ∈ D3.rhsNonContracting by decide)]
  rfl

/-- Row `p`, column `q` of the last launch's product: the sum over the 64 hidden features. -/
theorem product3_apply {φ₁ φ₂ : FTy} (l : FVec Ideal S5000x64 φ₁) (r : FVec Ideal S64x2 φ₂) (p : Fin 5000) (q : Fin 2) :
    matmul (F := Ideal) D3 none l r (constant S5000x2 .f32 0x00000000#32) (ix2 p q) = ∑ k : Fin 64, l (ix2 p k) * r (ix2 k q) := by
  show FloatOps.matmul D3 none l r (constant S5000x2 .f32 0x00000000#32) (ix2 p q) = _
  rw [Ideal.matmul_constant_zero_apply, ← Equiv.sum_comp (contrEquiv1 D3 64 rfl rfl).symm]
  refine Finset.sum_congr rfl fun k _ => ?_
  have hk := contrEquiv1_symm_val D3 64 rfl rfl k
  have el : D3.lhsIdx (ix2 p q) ((contrEquiv1 D3 64 rfl rfl).symm k) = ix2 p k := funext fun a => Fin.ext (by
    match a with
    | ⟨0, _⟩ => exact D3_lhs0 _ _
    | ⟨1, _⟩ => exact (D3_lhs1 _ _).trans hk)
  have er : D3.rhsIdx (ix2 p q) ((contrEquiv1 D3 64 rfl rfl).symm k) = ix2 k q := funext fun a => Fin.ext (by
    match a with
    | ⟨0, _⟩ => exact (D3_rhs0 _ _).trans hk
    | ⟨1, _⟩ => exact D3_rhs1 _ _)
  rw [el, er]

end Cert.KernelIdeal.BlockProducts

end
-- ==== Proof.LinRegion.lean ====
/-
  The first launch (linear layer, bias, node scale) read as ONE function of its four arrays. Each grid point takes
  5000 rows of the features `x` and of the scale column `s`, and the whole weight matrix and bias row, and writes back
  (x · W + b) · s for its rows: the blocks are restrictions of one whole-array function and tile the 100000 rows, so
  the result array ends holding that function.
-/
import proofs.«108735_j41970420418155_2_alg».proof.Proof.Gen.KernelIdeal.Frame
import proofs.«108735_j41970420418155_2_alg».proof.Proof.LibKeepdims
import proofs.«108735_j41970420418155_2_alg».proof.Proof.Spec
import proofs.«108735_j41970420418155_2_alg».proof.Proof.BlockProducts
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.LinRegion

open Cert.KernelIdeal Cert.KernelIdeal.Gen Cert.KernelIdeal.Spec Cert.KernelIdeal.BlockProducts

theorem hz : (![0, 0] : Fin 2 → Nat) = fun _ => 0 := funext fun a => by fin_cases a <;> rfl

/-- The body's stored value at row `p`, lane `q` of a block: the block's row of features against the weight column,
    plus the bias, times the row's scale (the roundings on the way into the product are the identity here). -/
theorem pay_apply (x0 : Vec Ideal S5000x128 .f32) (x1 : Vec Ideal S128x64 .f32) (x2 : Vec Ideal S1x64 .f32)
    (x3 : Vec Ideal S5000x1 .f32) (p : Fin 5000) (q : Fin 64) :
    k0_pay1 x0 x1 x2 x3 (ix2 p q) = ((∑ k : Fin 128, x0 (ix2 p k) * x1 (ix2 k q)) + x2 (ix2 0 q)) * x3 (ix2 p 0) := by
  unfold k0_pay1
  rw [mulf_apply, addf_apply, shapeCast_self, shapeCast_self, broadcastTo_a1_ab_apply, broadcastTo_1b_ab_apply]
  rw [product1_apply]
  rfl

variable (V : (c : Dev nD) → (b : Ref sig .tc) → Buf (Elt Ideal) ((c : Thread nD τ).loc b))

/-- The row windows (features, scale, result) move with the grid point; the weights and the bias stay put: decided
    over the 20 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Point `t`'s four input blocks, read at the positions that row `p`, lane `q` of its output block needs, are the
    arrays read at that element's place `I` in the array (row 5000·t + p, lane q). -/
theorem blk_point (A : S100000x128.Idx → EReal) (W : S128x64.Idx → EReal) (B : S1x64.Idx → EReal) (S : S100000x1.Idx → EReal)
    (t : Fin cfg0.N) (p : Fin 5000) (q : Fin 64) (I : S100000x64.Idx) (hI0 : (I 0).val = 5000 * t.val + p.val)
    (hI1 : (I 1).val = q.val) :
    ((∑ k : Fin 128, A (((cfg0.win 0).blk t).view.emb (ix2 p k)) * W (((cfg0.win 1).blk t).view.emb (ix2 k q)))
        + B (((cfg0.win 2).blk t).view.emb (ix2 0 q))) * S (((cfg0.win 3).blk t).view.emb (ix2 p 0))
      = lin1 A W B S I := by
  obtain ⟨e00, e01, e10, e11, e20, e21, e30, e31, e40, e41⟩ := idx_facts t
  unfold lin1
  have h0 : ∀ k : Fin 128, ((cfg0.win 0).blk t).view.emb (ix2 p k) = (ix2 (I 0) k : S100000x128.Idx) := fun k => by
    funext a; apply Fin.ext
    match a with
    | ⟨0, _⟩ => show win0_0.index t (0 : Fin 2) * 5000 + 1 * p.val = (I 0).val; rw [e00, hI0]; omega
    | ⟨1, _⟩ => show win0_0.index t (1 : Fin 2) * 128 + 1 * k.val = k.val; rw [e01]; omega
  have h1 : ∀ k : Fin 128, ((cfg0.win 1).blk t).view.emb (ix2 k q) = (ix2 k (I 1) : S128x64.Idx) := fun k => by
    funext a; apply Fin.ext
    match a with
    | ⟨0, _⟩ => show win0_1.index t (0 : Fin 2) * 128 + 1 * k.val = k.val; rw [e10]; omega
    | ⟨1, _⟩ => show win0_1.index t (1 : Fin 2) * 64 + 1 * q.val = (I 1).val; rw [e11, hI1]; omega
  have h2 : ((cfg0.win 2).blk t).view.emb (ix2 0 q) = (ix2 0 (I 1) : S1x64.Idx) := by
    funext a; apply Fin.ext
    match a with
    | ⟨0, _⟩ => show win0_2.index t (0 : Fin 2) * 1 + 1 * 0 = 0; rw [e20]
    | ⟨1, _⟩ => show win0_2.index t (1 : Fin 2) * 64 + 1 * q.val = (I 1).val; rw [e21, hI1]; omega
  have h3 : ((cfg0.win 3).blk t).view.emb (ix2 p 0) = (ix2 (I 0) 0 : S100000x1.Idx) := by
    funext a; apply Fin.ext
    match a with
    | ⟨0, _⟩ => show win0_3.index t (0 : Fin 2) * 5000 + 1 * p.val = (I 0).val; rw [e30, hI0]; omega
    | ⟨1, _⟩ => show win0_3.index t (1 : Fin 2) * 1 + 1 * 0 = 0; rw [e31]
  rw [h2, h3, Finset.sum_congr rfl fun k _ => by rw [h0 k, h1 k]]

/-- What point `t` writes back is block `t` of the scaled linear layer of the arrays as the launch finds them. -/
theorem flushed_eq (c : Dev nD) (t : Fin cfg0.N) :
    (dat0 V c).flushed 4 t = ((cfg0.win 4).blk t).view.read (Elt Ideal)
      (lin1 (V c main_arg0) (V c main_arg1) (V c main_v27) (V c main_v10)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x64) hz, View.ld_unit_zero (S := S1x64) hz,
    View.ld_unit_zero (S := S5000x1) hz]
  obtain ⟨-, -, -, -, -, -, -, -, e40, e41⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (iblk0 V c 2 t) (iblk0 V c 3 t) (ix2 p q)
      = lin1 (V c main_arg0) (V c main_arg1) (V c main_v27) (V c main_v10) (((cfg0.win 4).blk t).view.emb (ix2 p q))
  rw [pay_apply]
  exact blk_point (V c main_arg0) (V c main_arg1) (V c main_v27) (V c main_v10) t p q _
    (by show win0_4.index t (0 : Fin 2) * 5000 + 1 * p.val = _; rw [e40]; omega)
    (by show win0_4.index t (1 : Fin 2) * 64 + 1 * q.val = _; rw [e41]; omega)

/-- An index of the result array is in point `t`'s block iff each coordinate is in the block's range on its axis. -/
theorem mem_blk (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v28).slice (win0_4.rect t)).set ↔ _
  rw [View.set_slice_whole, Rect.mem_set_unit]
  exact Iff.rfl

/-- The 20 blocks of 5000 rows tile the 100000 rows: row `r` is in the block of point `r / 5000`. -/
theorem cover (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, e40, e41⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    rw [e40, ht]; omega
  | ⟨1, _⟩ =>
    show win0_4.index t (1 : Fin 2) * 64 ≤ (i 1).val ∧ (i 1).val < win0_4.index t (1 : Fin 2) * 64 + 64
    rw [e41]; omega

/-- The result array after the launch: the scaled linear layer of the arrays as the launch finds them. -/
theorem arr (c : Dev nD) : (dat0 V c).arrAt 4 cfg0.N = lin1 (V c main_arg0) (V c main_arg1) (V c main_v27) (V c main_v10) :=
  (dat0 V c).arrAt_eq_of_cover 4 _ (fun t _ => flushed_eq V c t) cover

end Cert.KernelIdeal.LinRegion

end
-- ==== Proof.GateRegion.lean ====
/-
  The second launch (scale and gate) read as ONE function of its three arrays. Each grid point takes 5000 rows of the
  aggregated features `a` and of the per-node scale column `s`, and the whole gate row `k`, and writes back
  a[r, j] · s[r, 0] · k[0, j] for its rows: the blocks are restrictions of one whole-array function, they tile the
  100000 rows, so the result array ends holding that function.
-/
import proofs.«108735_j41970420418155_2_alg».proof.Proof.Gen.KernelIdeal.Frame
import proofs.«108735_j41970420418155_2_alg».proof.Proof.LibKeepdims
import proofs.«108735_j41970420418155_2_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.GateRegion

open Cert.KernelIdeal Cert.KernelIdeal.Gen Cert.KernelIdeal.Spec

theorem hz : (![0, 0] : Fin 2 → Nat) = fun _ => 0 := funext fun a => by fin_cases a <;> rfl

/-- The body's stored value at row `p`, lane `q` of a block. -/
theorem pay_apply (x0 : Vec Ideal S5000x64 .f32) (x1 : Vec Ideal S5000x1 .f32) (x2 : Vec Ideal S1x64 .f32) (p : Fin 5000) (q : Fin 64) :
    k1_pay1 x0 x1 x2 (ix2 p q) = x0 (ix2 p q) * x1 (ix2 p 0) * x2 (ix2 0 q) := by
  unfold k1_pay1
  rw [mulf_apply, mulf_apply, shapeCast_self, shapeCast_self, shapeCast_self, broadcastTo_a1_ab_apply,
    broadcastTo_1b_ab_apply]

variable (V : (c : Dev nD) → (b : Ref sig .tc) → Buf (Elt Ideal) ((c : Thread nD τ).loc b))

/-- Every window of this launch moves with the grid point along the rows, or stays put: decided over the 20 points. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Point `t`'s three input blocks, read at the positions that row `p`, lane `q` of its output block needs, are the
    arrays read at that element's place `I` in the array (row 5000·t + p, lane q): the row windows move together with
    the grid point and the gate row stays put. -/
theorem blk_point (A : S100000x64.Idx → EReal) (S : S100000x1.Idx → EReal) (K : S1x64.Idx → EReal) (t : Fin cfg1.N)
    (p : Fin 5000) (q : Fin 64) (I : S100000x64.Idx) (hI0 : (I 0).val = 5000 * t.val + p.val) (hI1 : (I 1).val = q.val) :
    A (((cfg1.win 0).blk t).view.emb (ix2 p q)) * S (((cfg1.win 1).blk t).view.emb (ix2 p 0))
        * K (((cfg1.win 2).blk t).view.emb (ix2 0 q))
      = gate A S K I := by
  obtain ⟨e00, e01, e10, e11, e20, e21, e30, e31⟩ := idx_facts t
  unfold gate
  have h0 : ((cfg1.win 0).blk t).view.emb (ix2 p q) = I := by
    funext a; apply Fin.ext
    match a with
    | ⟨0, _⟩ => show win1_0.index t (0 : Fin 2) * 5000 + 1 * p.val = (I 0).val; rw [e00, hI0]; omega
    | ⟨1, _⟩ => show win1_0.index t (1 : Fin 2) * 64 + 1 * q.val = (I 1).val; rw [e01, hI1]; omega
  have h1 : ((cfg1.win 1).blk t).view.emb (ix2 p 0) = (ix2 (I 0) 0 : S100000x1.Idx) := by
    funext a; apply Fin.ext
    match a with
    | ⟨0, _⟩ => show win1_1.index t (0 : Fin 2) * 5000 + 1 * p.val = (I 0).val; rw [e10, hI0]; omega
    | ⟨1, _⟩ => show win1_1.index t (1 : Fin 2) * 1 + 1 * 0 = 0; rw [e11]
  have h2 : ((cfg1.win 2).blk t).view.emb (ix2 0 q) = (ix2 0 (I 1) : S1x64.Idx) := by
    funext a; apply Fin.ext
    match a with
    | ⟨0, _⟩ => show win1_2.index t (0 : Fin 2) * 1 + 1 * 0 = 0; rw [e20]
    | ⟨1, _⟩ => show win1_2.index t (1 : Fin 2) * 64 + 1 * q.val = (I 1).val; rw [e21, hI1]; omega
  rw [h0, h1, h2]

/-- What point `t` writes back is block `t` of the gated features of the arrays as the launch finds them. -/
theorem flushed_eq (c : Dev nD) (t : Fin cfg1.N) :
    (dat1 V c).flushed 3 t = ((cfg1.win 3).blk t).view.read (Elt Ideal) (gate (V c main_v41) (V c main_v26) (V c main_v42)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz, View.ld_unit_zero (S := S1x64) hz]
  obtain ⟨-, -, -, -, -, -, e30, e31⟩ := idx_facts t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q)
      = gate (V c main_v41) (V c main_v26) (V c main_v42) (((cfg1.win 3).blk t).view.emb (ix2 p q))
  rw [pay_apply]
  exact blk_point (V c main_v41) (V c main_v26) (V c main_v42) t p q _
    (by show win1_3.index t (0 : Fin 2) * 5000 + 1 * p.val = _; rw [e30]; omega)
    (by show win1_3.index t (1 : Fin 2) * 64 + 1 * q.val = _; rw [e31]; omega)

/-- An index of the result array is in point `t`'s block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v43).slice (win1_3.rect t)).set ↔ _
  rw [View.set_slice_whole, Rect.mem_set_unit]
  exact Iff.rfl

/-- The 20 blocks of 5000 rows tile the 100000 rows: row `r` is in the block of point `r / 5000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    rw [e30, ht]; omega
  | ⟨1, _⟩ =>
    show win1_3.index t (1 : Fin 2) * 64 ≤ (i 1).val ∧ (i 1).val < win1_3.index t (1 : Fin 2) * 64 + 64
    rw [e31]; omega

/-- The result array after the launch: the gated features of the arrays as the launch finds them. -/
theorem arr (c : Dev nD) : (dat1 V c).arrAt 3 cfg1.N = gate (V c main_v41) (V c main_v26) (V c main_v42) :=
  (dat1 V c).arrAt_eq_of_cover 3 _ (fun t _ => flushed_eq V c t) cover

end Cert.KernelIdeal.GateRegion

end
-- ==== Proof.FinRegion.lean ====
/-
  The last launch (node scale, clamp at zero, last linear layer with bias) read as ONE function of its four arrays.
  Each grid point takes 5000 rows of the aggregated features `a` and of the scale column `s`, and the whole weight
  matrix and bias row, and writes back max(a · s, 0) · W + b for its rows: the blocks are restrictions of one
  whole-array function and tile the 100000 rows, so the result array ends holding that function.
-/
import proofs.«108735_j41970420418155_2_alg».proof.Proof.Gen.KernelIdeal.Frame
import proofs.«108735_j41970420418155_2_alg».proof.Proof.LibKeepdims
import proofs.«108735_j41970420418155_2_alg».proof.Proof.Spec
import proofs.«108735_j41970420418155_2_alg».proof.Proof.BlockProducts
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.FinRegion

open Cert.KernelIdeal Cert.KernelIdeal.Gen Cert.KernelIdeal.Spec Cert.KernelIdeal.BlockProducts

theorem hz : (![0, 0] : Fin 2 → Nat) = fun _ => 0 := funext fun a => by fin_cases a <;> rfl

/-- The body's stored value at row `p`, column `q` of a block: the block's row of features, each scaled by the row's
    scale and clamped at zero, against the weight column, plus the bias (the roundings on the way into the product
    are the identity here). -/
theorem pay_apply (x0 : Vec Ideal S5000x64 .f32) (x1 : Vec Ideal S5000x1 .f32) (x2 : Vec Ideal S64x2 .f32)
    (x3 : Vec Ideal S1x2 .f32) (p : Fin 5000) (q : Fin 2) :
    k2_pay1 x0 x1 x2 x3 (ix2 p q)
      = (∑ k : Fin 64, max (x0 (ix2 p k) * x1 (ix2 p 0)) (Ideal.ofBits .f32 0x00000000#32) * x2 (ix2 k q)) + x3 (ix2 0 q) := by
  unfold k2_pay1
  simp only [shapeCast_self]
  rw [addf_apply, broadcastTo_1b_ab_apply, product3_apply]
  refine congrArg (· + x3 (ix2 0 q)) (Finset.sum_congr rfl fun k _ => ?_)
  rw [truncf_apply, truncf_apply, maximumf_apply, mulf_apply, broadcastTo_a1_ab_apply, broadcast_apply]
  rfl

variable (V : (c : Dev nD) → (b : Ref sig .tc) → Buf (Elt Ideal) ((c : Thread nD τ).loc b))

/-- The row windows (features, scale, result) move with the grid point; the weights and the bias stay put: decided
    over the 20 points. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Point `t`'s four input blocks, read at the positions that row `p`, column `q` of its output block needs, are the
    arrays read at that element's place `I` in the array (row 5000·t + p, column q). -/
theorem blk_point (A : S100000x64.Idx → EReal) (S : S100000x1.Idx → EReal) (W : S64x2.Idx → EReal) (B : S1x2.Idx → EReal)
    (t : Fin cfg2.N) (p : Fin 5000) (q : Fin 2) (I : S100000x2.Idx) (hI0 : (I 0).val = 5000 * t.val + p.val)
    (hI1 : (I 1).val = q.val) :
    (∑ k : Fin 64, max (A (((cfg2.win 0).blk t).view.emb (ix2 p k)) * S (((cfg2.win 1).blk t).view.emb (ix2 p 0)))
          (Ideal.ofBits .f32 0x00000000#32) * W (((cfg2.win 2).blk t).view.emb (ix2 k q)))
        + B (((cfg2.win 3).blk t).view.emb (ix2 0 q))
      = fin A S W B I := by
  obtain ⟨e00, e01, e10, e11, e20, e21, e30, e31, e40, e41⟩ := idx_facts t
  unfold fin
  have h0 : ∀ k : Fin 64, ((cfg2.win 0).blk t).view.emb (ix2 p k) = (ix2 (I 0) k : S100000x64.Idx) := fun k => by
    funext a; apply Fin.ext
    match a with
    | ⟨0, _⟩ => show win2_0.index t (0 : Fin 2) * 5000 + 1 * p.val = (I 0).val; rw [e00, hI0]; omega
    | ⟨1, _⟩ => show win2_0.index t (1 : Fin 2) * 64 + 1 * k.val = k.val; rw [e01]; omega
  have h1 : ((cfg2.win 1).blk t).view.emb (ix2 p 0) = (ix2 (I 0) 0 : S100000x1.Idx) := by
    funext a; apply Fin.ext
    match a with
    | ⟨0, _⟩ => show win2_1.index t (0 : Fin 2) * 5000 + 1 * p.val = (I 0).val; rw [e10, hI0]; omega
    | ⟨1, _⟩ => show win2_1.index t (1 : Fin 2) * 1 + 1 * 0 = 0; rw [e11]
  have h2 : ∀ k : Fin 64, ((cfg2.win 2).blk t).view.emb (ix2 k q) = (ix2 k (I 1) : S64x2.Idx) := fun k => by
    funext a; apply Fin.ext
    match a with
    | ⟨0, _⟩ => show win2_2.index t (0 : Fin 2) * 64 + 1 * k.val = k.val; rw [e20]; omega
    | ⟨1, _⟩ => show win2_2.index t (1 : Fin 2) * 2 + 1 * q.val = (I 1).val; rw [e21, hI1]; omega
  have h3 : ((cfg2.win 3).blk t).view.emb (ix2 0 q) = (ix2 0 (I 1) : S1x2.Idx) := by
    funext a; apply Fin.ext
    match a with
    | ⟨0, _⟩ => show win2_3.index t (0 : Fin 2) * 1 + 1 * 0 = 0; rw [e30]
    | ⟨1, _⟩ => show win2_3.index t (1 : Fin 2) * 2 + 1 * q.val = (I 1).val; rw [e31, hI1]; omega
  rw [h1, h3, Finset.sum_congr rfl fun k _ => by rw [h0 k, h2 k]]

/-- What point `t` writes back is block `t` of the output layer of the arrays as the launch finds them. -/
theorem flushed_eq (c : Dev nD) (t : Fin cfg2.N) :
    (dat2 V c).flushed 4 t = ((cfg2.win 4).blk t).view.read (Elt Ideal)
      (fin (V c main_v56) (V c main_v25) (V c main_arg4) (V c main_v57)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x1) hz, View.ld_unit_zero (S := S64x2) hz,
    View.ld_unit_zero (S := S1x2) hz]
  obtain ⟨-, -, -, -, -, -, -, -, e40, e41⟩ := idx_facts t
  funext j
  obtain ⟨p, q, rfl⟩ : ∃ (p : Fin 5000) (q : Fin 2), j = ix2 p q := ⟨j 0, j 1, eq_ix2 j⟩
  show k2_pay1 (iblk2 V c 0 t) (iblk2 V c 1 t) (iblk2 V c 2 t) (iblk2 V c 3 t) (ix2 p q)
      = fin (V c main_v56) (V c main_v25) (V c main_arg4) (V c main_v57) (((cfg2.win 4).blk t).view.emb (ix2 p q))
  rw [pay_apply]
  exact blk_point (V c main_v56) (V c main_v25) (V c main_arg4) (V c main_v57) t p q _
    (by show win2_4.index t (0 : Fin 2) * 5000 + 1 * p.val = _; rw [e40]; omega)
    (by show win2_4.index t (1 : Fin 2) * 2 + 1 * q.val = _; rw [e41]; omega)

/-- An index of the result array is in point `t`'s block iff each coordinate is in the block's range on its axis. -/
theorem mem_blk (t : Fin cfg2.N) (i : S100000x2.Idx) :
    i ∈ ((cfg2.win 4).blk t).view.set ↔ ∀ a : Fin 2, win2_4.index t a * S5000x2.size a ≤ (i a).val ∧ (i a).val < win2_4.index t a * S5000x2.size a + S5000x2.size a := by
  show i ∈ ((View.whole main_v58).slice (win2_4.rect t)).set ↔ _
  rw [View.set_slice_whole, Rect.mem_set_unit]
  exact Iff.rfl

/-- The 20 blocks of 5000 rows tile the 100000 rows: row `r` is in the block of point `r / 5000`. -/
theorem cover (i : S100000x2.Idx) : ∃ t : Fin cfg2.N, (cfg2.win 4).flush t = true ∧ i ∈ ((cfg2.win 4).blk t).view.set := by
  have hi0 : (i 0).val < 100000 := (i 0).isLt
  have hi1 : (i 1).val < 2 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    rw [e40, ht]; omega
  | ⟨1, _⟩ =>
    show win2_4.index t (1 : Fin 2) * 2 ≤ (i 1).val ∧ (i 1).val < win2_4.index t (1 : Fin 2) * 2 + 2
    rw [e41]; omega

/-- The result array after the launch: the output layer of the arrays as the launch finds them. -/
theorem arr (c : Dev nD) : (dat2 V c).arrAt 4 cfg2.N = fin (V c main_v56) (V c main_v25) (V c main_arg4) (V c main_v57) :=
  (dat2 V c).arrAt_eq_of_cover 4 _ (fun t _ => flushed_eq V c t) cover

end Cert.KernelIdeal.FinRegion

end
-- ==== Proof.KernelValue.lean ====
/-
  What the idealized kernel's result array holds after the run, as ONE term of the launch memory.
  The program alternates host operations and launches. Reading the buffers boundary by boundary:
    * the degree scales are computed before the first launch (DegreeScales);
    * the first launch leaves (x · W₁ + b₁) · scale_out(g), its whole-array function;
    * a host stretch gathers rows at the edges' sources, weighs them and adds them up at the edges' targets;
    * the second launch scales by scale_in(g) · scale_out(g⁻¹) and gates;
    * the same gather / weigh / add-up over the second graph;
    * the last launch scales by scale_in(g⁻¹), clamps at zero and applies the output layer.
  Every buffer a later stage reads and no earlier stage writes is carried unchanged across the stages in between.
-/
import proofs.«108735_j41970420418155_2_alg».proof.Proof.Gen.KernelIdeal.Frame
import proofs.«108735_j41970420418155_2_alg».proof.Proof.Spec
import proofs.«108735_j41970420418155_2_alg».proof.Proof.DegreeScales
import proofs.«108735_j41970420418155_2_alg».proof.Proof.LinRegion
import proofs.«108735_j41970420418155_2_alg».proof.Proof.GateRegion
import proofs.«108735_j41970420418155_2_alg».proof.Proof.FinRegion
import Idealize.ShloMosaic.Lib.StableHlo.Run

set_option maxRecDepth 16384

open Idealize.ShloMosaic Idealize.ShloMosaic.TcCoe Idealize.SL.Sem Idealize.ShloMosaic.StableHlo

namespace Cert.KernelIdeal.Whole

open Cert.KernelIdeal Cert.KernelIdeal.Gen Cert.KernelIdeal.Spec

/-- Reads a buffer after one of the two host stretches between the launches: unfolds the stretch's operations and takes
    each one's result at its own buffer, every other buffer as it was. -/
local macro "read_host" : tactic =>
  `(tactic| (dsimp only [W13, W11, hostOps1, hostOps2]; after_results_simp <;> rfl))

noncomputable section

/-! ## The host functions between the launches -/

/-- A 2-vector laid out as a row. -/
def row2 (v : FVec Ideal S2 .f32) : FVec Ideal S1x2 .f32 := shapeCast S1x2 v shapeCasts_S2_S1x2

/-- One message-passing step over a graph: the rows of `h` at the edges' sources (a negative source index counted
    from the end), each times its edge's weight, added up at the edges' targets. -/
def spread (h : FVec Ideal S100000x64 .f32) (src dst : IVec S1600000 32) (w : FVec Ideal S1600000 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (mulf (Host.gather gather_S100000x64_S1600000x1_S1600000x64_1_0_n_n_0_1_164 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x64 ![0, 1] bcast_S1600000x1_S1600000x64_0_1 (broadcastInDim S1600000x1 ![0] bcast_S1600000_S1600000x1_0 w)))

variable (m : (ℓ : Loc nD τ sig) → Buf (Elt Ideal) ℓ) (ρ : Dev nD → PrngReg)

/-- The result array as a term of the launch memory. -/
def KV (c : Dev nD) : S100000x2.Idx → EReal :=
  fin
    (spread
      (gate
        (spread
          (lin1 (m ((c : Thread nD τ).loc main_arg0)) (m ((c : Thread nD τ).loc main_arg1)) (row64 (m ((c : Thread nD τ).loc main_arg2)))
            (scale (m ((c : Thread nD τ).loc main_arg6))))
          (m ((c : Thread nD τ).loc main_arg6)) (m ((c : Thread nD τ).loc main_arg7)) (m ((c : Thread nD τ).loc main_arg8)))
        (mulf (F := Ideal) (scale (m ((c : Thread nD τ).loc main_arg7))) (scale (m ((c : Thread nD τ).loc main_arg9))))
        (row64 (m ((c : Thread nD τ).loc main_arg3))))
      (m ((c : Thread nD τ).loc main_arg9)) (m ((c : Thread nD τ).loc main_arg10)) (m ((c : Thread nD τ).loc main_arg11)))
    (scale (m ((c : Thread nD τ).loc main_arg10))) (m ((c : Thread nD τ).loc main_arg4)) (row2 (m ((c : Thread nD τ).loc main_arg5)))

/-! ## The buffers, boundary by boundary

`W9` … `W14` are the buffers' contents when the first launch is entered, left, and so on to the return. -/

/-! ### Leaving the first launch: its result array at its whole-array function, the rest as entered -/

theorem at10_v28 (c : Dev nD) : W10 m ρ c (Proc.devRef .tc main_v28)
    = lin1 (W9 m ρ c (Proc.devRef .tc main_arg0)) (W9 m ρ c (Proc.devRef .tc main_arg1)) (W9 m ρ c (Proc.devRef .tc main_v27)) (W9 m ρ c (Proc.devRef .tc main_v10)) :=
  (W10_arr m ρ c 4).trans (LinRegion.arr (V9 m ρ) c)

/-! ### Entering the second launch: the first message-passing step, the gate as a row -/

theorem at11_v41 (c : Dev nD) : W11 m ρ c (Proc.devRef .tc main_v41)
    = spread (W10 m ρ c (Proc.devRef .tc main_v28)) (W10 m ρ c (Proc.devRef .tc main_arg6)) (W10 m ρ c (Proc.devRef .tc main_arg7)) (W10 m ρ c (Proc.devRef .tc main_arg8)) := by
  read_host
theorem at11_v42 (c : Dev nD) : W11 m ρ c (Proc.devRef .tc main_v42) = row64 (W10 m ρ c (Proc.devRef .tc main_arg3)) := by read_host
theorem at11_v26 (c : Dev nD) : W11 m ρ c (Proc.devRef .tc main_v26) = W10 m ρ c (Proc.devRef .tc main_v26) := by read_host
theorem at11_v25 (c : Dev nD) : W11 m ρ c (Proc.devRef .tc main_v25) = W10 m ρ c (Proc.devRef .tc main_v25) := by read_host
theorem at11_arg4 (c : Dev nD) : W11 m ρ c (Proc.devRef .tc main_arg4) = W10 m ρ c (Proc.devRef .tc main_arg4) := by read_host
theorem at11_arg5 (c : Dev nD) : W11 m ρ c (Proc.devRef .tc main_arg5) = W10 m ρ c (Proc.devRef .tc main_arg5) := by read_host
theorem at11_arg9 (c : Dev nD) : W11 m ρ c (Proc.devRef .tc main_arg9) = W10 m ρ c (Proc.devRef .tc main_arg9) := by read_host
theorem at11_arg10 (c : Dev nD) : W11 m ρ c (Proc.devRef .tc main_arg10) = W10 m ρ c (Proc.devRef .tc main_arg10) := by read_host
theorem at11_arg11 (c : Dev nD) : W11 m ρ c (Proc.devRef .tc main_arg11) = W10 m ρ c (Proc.devRef .tc main_arg11) := by read_host

/-! ### Leaving the second launch -/

theorem at12_v43 (c : Dev nD) : W12 m ρ c (Proc.devRef .tc main_v43)
    = gate (W11 m ρ c (Proc.devRef .tc main_v41)) (W11 m ρ c (Proc.devRef .tc main_v26)) (W11 m ρ c (Proc.devRef .tc main_v42)) :=
  (W12_arr m ρ c 3).trans (GateRegion.arr (V11 m ρ) c)

/-! ### Entering the last launch: the second message-passing step, the output bias as a row -/

theorem at13_v56 (c : Dev nD) : W13 m ρ c (Proc.devRef .tc main_v56)
    = spread (W12 m ρ c (Proc.devRef .tc main_v43)) (W12 m ρ c (Proc.devRef .tc main_arg9)) (W12 m ρ c (Proc.devRef .tc main_arg10)) (W12 m ρ c (Proc.devRef .tc main_arg11)) := by
  read_host
theorem at13_v57 (c : Dev nD) : W13 m ρ c (Proc.devRef .tc main_v57) = row2 (W12 m ρ c (Proc.devRef .tc main_arg5)) := by read_host
theorem at13_v25 (c : Dev nD) : W13 m ρ c (Proc.devRef .tc main_v25) = W12 m ρ c (Proc.devRef .tc main_v25) := by read_host
theorem at13_arg4 (c : Dev nD) : W13 m ρ c (Proc.devRef .tc main_arg4) = W12 m ρ c (Proc.devRef .tc main_arg4) := by read_host

/-! ### Leaving the last launch: the result -/

theorem at14_v58 (c : Dev nD) : W14 m ρ c (Proc.devRef .tc main_v58)
    = fin (W13 m ρ c (Proc.devRef .tc main_v56)) (W13 m ρ c (Proc.devRef .tc main_v25)) (W13 m ρ c (Proc.devRef .tc main_arg4)) (W13 m ρ c (Proc.devRef .tc main_v57)) :=
  (W14_arr m ρ c 4).trans (FinRegion.arr (V13 m ρ) c)

/-- THE RESULT ARRAY after the run is `KV` of the launch memory: the boundaries' readings chained, a buffer that a
    launch neither reads through an output window nor writes being carried across it unchanged. -/
theorem result_eq (c : Dev nD) : W14 m ρ c (Proc.devRef .tc main_v58) = KV m c := by
  rw [at14_v58, at13_v56, at13_v57, at13_v25, at13_arg4, at12_v43,
    W12_of_ne m ρ c main_arg9 (by decide), W12_of_ne m ρ c main_arg10 (by decide), W12_of_ne m ρ c main_arg11 (by decide),
    W12_of_ne m ρ c main_arg5 (by decide), W12_of_ne m ρ c main_v25 (by decide), W12_of_ne m ρ c main_arg4 (by decide),
    at11_v41, at11_v42, at11_v26, at11_v25, at11_arg4, at11_arg5, at11_arg9, at11_arg10, at11_arg11, at10_v28,
    W10_of_ne m ρ c main_arg6 (by decide), W10_of_ne m ρ c main_arg7 (by decide), W10_of_ne m ρ c main_arg8 (by decide),
    W10_of_ne m ρ c main_arg3 (by decide), W10_of_ne m ρ c main_v26 (by decide), W10_of_ne m ρ c main_v25 (by decide),
    W10_of_ne m ρ c main_arg4 (by decide), W10_of_ne m ρ c main_arg5 (by decide), W10_of_ne m ρ c main_arg9 (by decide),
    W10_of_ne m ρ c main_arg10 (by decide), W10_of_ne m ρ c main_arg11 (by decide),
    at9_arg0, at9_arg1, at9_v27, at9_v10, at9_v26, at9_v25, at9_arg3, at9_arg4, at9_arg5, at9_arg6, at9_arg7, at9_arg8,
    at9_arg9, at9_arg10, at9_arg11]
  rfl

end

end Cert.KernelIdeal.Whole
-- ==== Proof.LibBroadcastInDim.lean ====
/-
  Readings of `broadcast_in_dim` at an element. Between a vector and a matrix: a length-b vector laid as a
  [1, b] row; a [1, b] row repeated down `a` rows; a length-a vector laid as an [a, 1] column; an [a, 1] column repeated
  across `b` lanes. And a scalar repeated over any shape. Each reads one element of its operand.
-/
import Idealize.ShloMosaic.Lib.Pipeline.Value
import Idealize.ShloMosaic.Lib.ValueIdx

namespace Idealize.ShloMosaic.ValueIdx

variable {α : Type}

/-- A length-b vector laid as a [1, b] row reads, at (u, j), the vector at j. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A [1, b] row repeated down `a` rows reads, at (r, j), the row at (0, j). -/
theorem broadcastInDim_1b_ab_apply {a b : ℕ} (x : (⟨2, ![1, b]⟩ : Shape).Idx → α)
    (h : (⟨2, ![1, b]⟩ : Shape).BroadcastsInDim ⟨2, ![a, b]⟩ ![0, 1]) (r : Fin a) (j : Fin b) :
    broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ =>
    show (0 : ℕ) = if (1 : ℕ) = 1 then 0 else r.val
    rw [if_pos rfl]
  | ⟨1, _⟩ =>
    show j.val = if b = 1 then 0 else j.val
    split
    · have := j.isLt; omega
    · rfl

/-- A length-a vector laid as an [a, 1] column reads, at (r, u), the vector at r. -/
theorem broadcastInDim_a_a1_apply {a : ℕ} (x : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- An [a, 1] column repeated across `b` lanes reads, at (r, j), the column at (r, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (r : Fin a) (j : Fin b) :
    broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else j.val
    rw [if_pos rfl]

/-- A scalar repeated over any shape reads, at every index, the scalar. -/
theorem broadcastInDim_scalar_apply {t : Shape} (x : (⟨0, ![]⟩ : Shape).Idx → α)
    (h : (⟨0, ![]⟩ : Shape).BroadcastsInDim t ![]) (i : t.Idx) : broadcastInDim t ![] h x i = x ix0 :=
  broadcastInDim_apply _ h x i ix0 fun a => a.elim0

end Idealize.ShloMosaic.ValueIdx
-- ==== Proof.HostForms.lean ====
/-
  The reference's three dense stages as the same whole-array functions the launches compute.
  On the host the reference spells a bias row as the vector laid out as [1, ·] and repeated down the rows, a node
  scale as the vector laid out as [n, 1] and repeated across the lanes; the launches receive the same data reshaped
  to [1, ·] and [n, 1]. Index by index the two spellings read the same element, a host matrix product is the same sum
  as a launch's, and the gate stage differs only in the order of its three factors: multiplication on the extended
  reals is commutative and associative, so the products agree (no finiteness is used).
-/
import proofs.«108735_j41970420418155_2_alg».proof.Proof.Gen.ReferenceIdeal
import proofs.«108735_j41970420418155_2_alg».proof.Proof.Spec
import proofs.«108735_j41970420418155_2_alg».proof.Proof.LibKeepdims
import proofs.«108735_j41970420418155_2_alg».proof.Proof.LibBroadcastInDim
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.ReferenceIdeal.HostForms

open Cert.ReferenceIdeal

/-! ## The two host matrix products at an element -/

abbrev E1 : DotDims S100000x128 S128x64 S100000x64 := dot_S100000x128_S128x64_S100000x64_1_0_0_1_n_n

theorem E1_lhs0 (i : S100000x64.Idx) (u : E1.contr.Idx) : (E1.lhsIdx i u 0).val = (i 0).val := by
  unfold DotDims.lhsIdx
  rw [dif_neg (show ¬(0 : Fin S100000x128.rank) ∈ E1.lhsBatch by decide), dif_pos (show (0 : Fin S100000x128.rank) ∈ E1.lhsNonContracting by decide)]
  rfl
theorem E1_lhs1 (i : S100000x64.Idx) (u : E1.contr.Idx) : (E1.lhsIdx i u 1).val = (u ⟨0, by decide⟩).val :=
  E1.lhsIdx_val_of_single rfl i u
theorem E1_rhs0 (i : S100000x64.Idx) (u : E1.contr.Idx) : (E1.rhsIdx i u 0).val = (u ⟨0, by decide⟩).val :=
  E1.rhsIdx_val_of_single rfl i u
theorem E1_rhs1 (i : S100000x64.Idx) (u : E1.contr.Idx) : (E1.rhsIdx i u 1).val = (i 1).val := by
  unfold DotDims.rhsIdx
  rw [dif_neg (show ¬(1 : Fin S128x64.rank) ∈ E1.rhsBatch by decide), dif_pos (show (1 : Fin S128x64.rank) ∈ E1.rhsNonContracting by decide)]
  rfl

/-- Row `p`, column `q` of the first linear layer's product: the sum over the 128 input features. -/
theorem dot1_apply (l : FVec Ideal S100000x128 .f32) (r : FVec Ideal S128x64 .f32) (p : Fin 100000) (q : Fin 64) :
    Host.dotGeneral (F := Ideal) E1 none l r (ix2 p q) = ∑ k : Fin 128, l (ix2 p k) * r (ix2 k q) := by
  simp only [Host.dotGeneral]
  rw [Ideal.dotGeneral_apply, ← Equiv.sum_comp (contrEquiv1 E1 128 rfl rfl).symm]
  refine Finset.sum_congr rfl fun k _ => ?_
  have hk := contrEquiv1_symm_val E1 128 rfl rfl k
  have el : E1.lhsIdx (ix2 p q) ((contrEquiv1 E1 128 rfl rfl).symm k) = ix2 p k := funext fun a => Fin.ext (by
    match a with
    | ⟨0, _⟩ => exact E1_lhs0 _ _
    | ⟨1, _⟩ => exact (E1_lhs1 _ _).trans hk)
  have er : E1.rhsIdx (ix2 p q) ((contrEquiv1 E1 128 rfl rfl).symm k) = ix2 k q := funext fun a => Fin.ext (by
    match a with
    | ⟨0, _⟩ => exact (E1_rhs0 _ _).trans hk
    | ⟨1, _⟩ => exact E1_rhs1 _ _)
  rw [el, er]

abbrev E3 : DotDims S100000x64 S64x2 S100000x2 := dot_S100000x64_S64x2_S100000x2_1_0_0_1_n_n

theorem E3_lhs0 (i : S100000x2.Idx) (u : E3.contr.Idx) : (E3.lhsIdx i u 0).val = (i 0).val := by
  unfold DotDims.lhsIdx
  rw [dif_neg (show ¬(0 : Fin S100000x64.rank) ∈ E3.lhsBatch by decide), dif_pos (show (0 : Fin S100000x64.rank) ∈ E3.lhsNonContracting by decide)]
  rfl
theorem E3_lhs1 (i : S100000x2.Idx) (u : E3.contr.Idx) : (E3.lhsIdx i u 1).val = (u ⟨0, by decide⟩).val :=
  E3.lhsIdx_val_of_single rfl i u
theorem E3_rhs0 (i : S100000x2.Idx) (u : E3.contr.Idx) : (E3.rhsIdx i u 0).val = (u ⟨0, by decide⟩).val :=
  E3.rhsIdx_val_of_single rfl i u
theorem E3_rhs1 (i : S100000x2.Idx) (u : E3.contr.Idx) : (E3.rhsIdx i u 1).val = (i 1).val := by
  unfold DotDims.rhsIdx
  rw [dif_neg (show ¬(1 : Fin S64x2.rank) ∈ E3.rhsBatch by decide), dif_pos (show (1 : Fin S64x2.rank) ∈ E3.rhsNonContracting by decide)]
  rfl

/-- Row `p`, column `q` of the last linear layer's product: the sum over the 64 hidden features. -/
theorem dot3_apply (l : FVec Ideal S100000x64 .f32) (r : FVec Ideal S64x2 .f32) (p : Fin 100000) (q : Fin 2) :
    Host.dotGeneral (F := Ideal) E3 none l r (ix2 p q) = ∑ k : Fin 64, l (ix2 p k) * r (ix2 k q) := by
  simp only [Host.dotGeneral]
  rw [Ideal.dotGeneral_apply, ← Equiv.sum_comp (contrEquiv1 E3 64 rfl rfl).symm]
  refine Finset.sum_congr rfl fun k _ => ?_
  have hk := contrEquiv1_symm_val E3 64 rfl rfl k
  have el : E3.lhsIdx (ix2 p q) ((contrEquiv1 E3 64 rfl rfl).symm k) = ix2 p k := funext fun a => Fin.ext (by
    match a with
    | ⟨0, _⟩ => exact E3_lhs0 _ _
    | ⟨1, _⟩ => exact (E3_lhs1 _ _).trans hk)
  have er : E3.rhsIdx (ix2 p q) ((contrEquiv1 E3 64 rfl rfl).symm k) = ix2 k q := funext fun a => Fin.ext (by
    match a with
    | ⟨0, _⟩ => exact (E3_rhs0 _ _).trans hk
    | ⟨1, _⟩ => exact E3_rhs1 _ _)
  rw [el, er]

/-! ## The three stages -/

/-- (x · W + b) scaled row by row, in the host's spelling, is the first launch's function of the reshaped bias and scale. -/
theorem lin1_host (x : FVec Ideal S100000x128 .f32) (W : FVec Ideal S128x64 .f32) (b : FVec Ideal S64 .f32)
    (s : FVec Ideal S100000 .f32) (h1 : S64.BroadcastsInDim S1x64 ![1]) (h2 : S1x64.BroadcastsInDim S100000x64 ![0, 1])
    (h3 : S100000.BroadcastsInDim S100000x1 ![0]) (h4 : S100000x1.BroadcastsInDim S100000x64 ![0, 1])
    (hb : S64.ShapeCasts S1x64) (hs : S100000.ShapeCasts S100000x1) :
    mulf (F := Ideal) (addf (Host.dotGeneral E1 none x W) (broadcastInDim S100000x64 ![0, 1] h2 (broadcastInDim S1x64 ![1] h1 b)))
        (broadcastInDim S100000x64 ![0, 1] h4 (broadcastInDim S100000x1 ![0] h3 s))
      = Cert.KernelIdeal.Spec.lin1 x W (shapeCast S1x64 b hb) (shapeCast S100000x1 s hs) := by
  funext i
  obtain ⟨r, j, rfl⟩ : ∃ (r : Fin 100000) (j : Fin 64), i = ix2 r j := ⟨i 0, i 1, eq_ix2 i⟩
  rw [mulf_apply, addf_apply, dot1_apply, broadcastInDim_1b_ab_apply, broadcastInDim_b_1b_apply, broadcastInDim_a1_ab_apply,
    broadcastInDim_a_a1_apply]
  show _ = ((∑ k : Fin 128, x (ix2 r k) * W (ix2 k j)) + shapeCast S1x64 b hb (ix2 0 j)) * shapeCast S100000x1 s hs (ix2 r 0)
  rw [shapeCast_a_1a_apply, shapeCast_a_a1_apply]

/-- The gate stage between the two graph convolutions, in the host's spelling (gate · (a · scale₁)) · scale₂, is the
    second launch's function a · (scale₁ · scale₂) · gate: the same three factors in another order. -/
theorem gate_host (a : FVec Ideal S100000x64 .f32) (s1 s2 : FVec Ideal S100000 .f32) (k : FVec Ideal S64 .f32)
    (h1 : S64.BroadcastsInDim S1x64 ![1]) (h2 : S1x64.BroadcastsInDim S100000x64 ![0, 1])
    (h3 h3' : S100000.BroadcastsInDim S100000x1 ![0]) (h4 h4' : S100000x1.BroadcastsInDim S100000x64 ![0, 1])
    (hk : S64.ShapeCasts S1x64) (hs hs' : S100000.ShapeCasts S100000x1) :
    mulf (F := Ideal) (mulf (broadcastInDim S100000x64 ![0, 1] h2 (broadcastInDim S1x64 ![1] h1 k))
          (mulf a (broadcastInDim S100000x64 ![0, 1] h4 (broadcastInDim S100000x1 ![0] h3 s1))))
        (broadcastInDim S100000x64 ![0, 1] h4' (broadcastInDim S100000x1 ![0] h3' s2))
      = Cert.KernelIdeal.Spec.gate a (mulf (F := Ideal) (shapeCast S100000x1 s1 hs) (shapeCast S100000x1 s2 hs')) (shapeCast S1x64 k hk) := by
  funext i
  obtain ⟨r, j, rfl⟩ : ∃ (r : Fin 100000) (j : Fin 64), i = ix2 r j := ⟨i 0, i 1, eq_ix2 i⟩
  rw [mulf_apply, mulf_apply, mulf_apply, broadcastInDim_1b_ab_apply, broadcastInDim_b_1b_apply, broadcastInDim_a1_ab_apply,
    broadcastInDim_a_a1_apply, broadcastInDim_a1_ab_apply, broadcastInDim_a_a1_apply]
  show _ = a (ix2 r j) * mulf (F := Ideal) (shapeCast S100000x1 s1 hs) (shapeCast S100000x1 s2 hs') (ix2 r 0) * shapeCast S1x64 k hk (ix2 0 j)
  rw [mulf_apply, shapeCast_a_1a_apply, shapeCast_a_a1_apply, shapeCast_a_a1_apply]
  ac_rfl

/-- max(a · scale, 0) · W + b, in the host's spelling, is the last launch's function of the reshaped scale and bias. -/
theorem fin_host (a : FVec Ideal S100000x64 .f32) (s : FVec Ideal S100000 .f32) (W : FVec Ideal S64x2 .f32)
    (b : FVec Ideal S2 .f32) (h0 : S_.BroadcastsInDim S100000x64 ![]) (h1 : S2.BroadcastsInDim S1x2 ![1])
    (h2 : S1x2.BroadcastsInDim S100000x2 ![0, 1]) (h3 : S100000.BroadcastsInDim S100000x1 ![0])
    (h4 : S100000x1.BroadcastsInDim S100000x64 ![0, 1]) (hb : S2.ShapeCasts S1x2) (hs : S100000.ShapeCasts S100000x1) :
    addf (F := Ideal) (Host.dotGeneral E3 none
          (maximumf (mulf a (broadcastInDim S100000x64 ![0, 1] h4 (broadcastInDim S100000x1 ![0] h3 s)))
            (broadcastInDim S100000x64 ![] h0 (constant S_ .f32 0x00000000#32))) W)
        (broadcastInDim S100000x2 ![0, 1] h2 (broadcastInDim S1x2 ![1] h1 b))
      = Cert.KernelIdeal.Spec.fin a (shapeCast S100000x1 s hs) W (shapeCast S1x2 b hb) := by
  funext i
  obtain ⟨r, j, rfl⟩ : ∃ (r : Fin 100000) (j : Fin 2), i = ix2 r j := ⟨i 0, i 1, eq_ix2 i⟩
  rw [addf_apply, dot3_apply, broadcastInDim_1b_ab_apply, broadcastInDim_b_1b_apply]
  show _ = (∑ k : Fin 64, max (a (ix2 r k) * shapeCast S100000x1 s hs (ix2 r 0)) (Ideal.ofBits .f32 0x00000000#32) * W (ix2 k j))
      + shapeCast S1x2 b hb (ix2 0 j)
  rw [shapeCast_a_1a_apply, shapeCast_a_a1_apply]
  refine congrArg (· + b (ix1 j)) (Finset.sum_congr rfl fun k _ => ?_)
  rw [maximumf_apply, mulf_apply, broadcastInDim_a1_ab_apply, broadcastInDim_a_a1_apply, broadcastInDim_scalar_apply,
    constant_apply]

end Cert.ReferenceIdeal.HostForms

end
-- ==== Proof.lean ====
/-
  A two-layer graph network over n = 100000 nodes and two edge lists: a linear layer, two degree-normalised
  message-passing steps with a learned gate between them, a clamp at zero and an output layer. The kernel program runs
  the dense stages as three launches over 20 row blocks of 5000 nodes, the degree counts and the gather / add-up steps
  on the host between them; the reference runs everything on the host.
  Read at the extended reals (a change of float format is the identity there) each launch leaves ONE whole-array
  function of its arrays (LinRegion, GateRegion, FinRegion), so the kernel's result array is a closed term of the
  launch memory (KernelValue), read off a run of the whole program (WholeRun). The reference's result is the same term:
  its host spelling of each dense stage is the launch's function (HostForms) — bias rows and scale columns read the same
  element either way, a host matrix product and a launch's are the same sum, and the gate stage multiplies the same three
  factors in another order, which agrees because multiplication of extended reals is commutative and associative; the
  degree counts, gathers and add-ups are the same host operations on both sides and are never opened. No finiteness
  of the inputs is needed for the value claim; the precondition is not used.
-/
import proofs.«108735_j41970420418155_2_alg».proof.Defs
import proofs.«108735_j41970420418155_2_alg».proof.Proof.Gen.Kernel
import proofs.«108735_j41970420418155_2_alg».proof.Proof.Gen.Kernel.Frame
import proofs.«108735_j41970420418155_2_alg».proof.Proof.Gen.KernelIdeal
import proofs.«108735_j41970420418155_2_alg».proof.Proof.Gen.KernelIdeal.Frame
import proofs.«108735_j41970420418155_2_alg».proof.Proof.Gen.ReferenceIdeal
import proofs.«108735_j41970420418155_2_alg».proof.Proof.Gen.Pre_finite_inputs
import proofs.«108735_j41970420418155_2_alg».proof.Proof.Gen.ReferenceIdeal.Run
import proofs.«108735_j41970420418155_2_alg».proof.Proof.WholeRun
import proofs.«108735_j41970420418155_2_alg».proof.Proof.KernelValue
import proofs.«108735_j41970420418155_2_alg».proof.Proof.HostForms
import Idealize.ShloMosaic.Adequacy
import Idealize.ShloMosaic.Init

set_option maxRecDepth 16384

noncomputable section

namespace Cert.Proof

open Idealize.ShloMosaic Idealize.ShloMosaic.TcCoe Idealize.SL.Sem

/-! ## The frames, and the idealization -/

theorem frame_k : Cert.frame_Kernel := fun m ρ _ => Cert.Kernel.Gen.frame m ρ
theorem frame_ki : Cert.frame_KernelIdeal := fun m ρ _ => Cert.KernelIdeal.Gen.frame m ρ
/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)
/-- The ideal pass rewrote nothing: the idealized kernel is the kernel's own text read at the extended reals. -/
theorem preserves : Cert.preserves_Kernel_KernelIdeal := trivial

/-! ## The two results are one term -/

/-- The reference's result, from a memory agreeing with the kernel's on the arguments, is the kernel's result term:
    rewrite the arguments, then each dense stage's host spelling to the launch's whole-array function; what is left on
    both sides is the same composition of the same host operations. -/
theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v71 (F := Ideal) m' c = Cert.KernelIdeal.Whole.KV m c := by
  obtain ⟨h0, h1, h2, h3, h4, h5, h6, h7, h8, h9, h10, h11⟩ := hagree
  unfold Cert.ReferenceIdeal.Value.res_main_v71
  rw [h0, h1, h2, h3, h4, h5, h6, h7, h8, h9, h10, h11]
  rw [Cert.ReferenceIdeal.HostForms.fin_host (hb := Cert.KernelIdeal.Gen.shapeCasts_S2_S1x2) (hs := Cert.KernelIdeal.Gen.shapeCasts_S100000_S100000x1),
    Cert.ReferenceIdeal.HostForms.gate_host (hk := Cert.KernelIdeal.Gen.shapeCasts_S64_S1x64) (hs := Cert.KernelIdeal.Gen.shapeCasts_S100000_S100000x1) (hs' := Cert.KernelIdeal.Gen.shapeCasts_S100000_S100000x1),
    Cert.ReferenceIdeal.HostForms.lin1_host (hb := Cert.KernelIdeal.Gen.shapeCasts_S64_S1x64) (hs := Cert.KernelIdeal.Gen.shapeCasts_S100000_S100000x1)]
  rfl

/-! ## The value claim -/

/-- From memories agreeing on the arguments both programs run, the kernel's result array ends at its term of the launch
    memory (the whole run, every buffer read; the result by `result_eq`, each argument carried back to the launch), the
    reference's at its composed term, which is the same (`ref_eq`). -/
theorem algebraic : Cert.algebraic_KernelIdeal_ReferenceIdeal := by
  intro m ρ m' ρ' _ hagree
  refine ⟨fun c => Cert.KernelIdeal.Whole.KV m c, ?_, ?_⟩
  · refine (θ_run Cert.KernelIdeal.defs _ _).mono (fun r h c => ?_) (Cert.KernelIdeal.WholeRun.run_buffers (F := Ideal) m ρ)
    exact ⟨(h c _ (Cert.KernelIdeal.Gen.mem_uc Cert.KernelIdeal.main_v58 (by decide))).trans (Cert.KernelIdeal.Whole.result_eq m ρ c),
      (h c _ (Cert.KernelIdeal.Gen.mem_uc Cert.KernelIdeal.main_arg0 (by decide))).trans (Cert.KernelIdeal.Gen.W14_main_arg0 m ρ c),
      (h c _ (Cert.KernelIdeal.Gen.mem_uc Cert.KernelIdeal.main_arg1 (by decide))).trans (Cert.KernelIdeal.Gen.W14_main_arg1 m ρ c),
      (h c _ (Cert.KernelIdeal.Gen.mem_uc Cert.KernelIdeal.main_arg2 (by decide))).trans (Cert.KernelIdeal.Gen.W14_main_arg2 m ρ c),
      (h c _ (Cert.KernelIdeal.Gen.mem_uc Cert.KernelIdeal.main_arg3 (by decide))).trans (Cert.KernelIdeal.Gen.W14_main_arg3 m ρ c),
      (h c _ (Cert.KernelIdeal.Gen.mem_uc Cert.KernelIdeal.main_arg4 (by decide))).trans (Cert.KernelIdeal.Gen.W14_main_arg4 m ρ c),
      (h c _ (Cert.KernelIdeal.Gen.mem_uc Cert.KernelIdeal.main_arg5 (by decide))).trans (Cert.KernelIdeal.Gen.W14_main_arg5 m ρ c),
      (h c _ (Cert.KernelIdeal.Gen.mem_uc Cert.KernelIdeal.main_arg6 (by decide))).trans (Cert.KernelIdeal.Gen.W14_main_arg6 m ρ c),
      (h c _ (Cert.KernelIdeal.Gen.mem_uc Cert.KernelIdeal.main_arg7 (by decide))).trans (Cert.KernelIdeal.Gen.W14_main_arg7 m ρ c),
      (h c _ (Cert.KernelIdeal.Gen.mem_uc Cert.KernelIdeal.main_arg8 (by decide))).trans (Cert.KernelIdeal.Gen.W14_main_arg8 m ρ c),
      (h c _ (Cert.KernelIdeal.Gen.mem_uc Cert.KernelIdeal.main_arg9 (by decide))).trans (Cert.KernelIdeal.Gen.W14_main_arg9 m ρ c),
      (h c _ (Cert.KernelIdeal.Gen.mem_uc Cert.KernelIdeal.main_arg10 (by decide))).trans (Cert.KernelIdeal.Gen.W14_main_arg10 m ρ c),
      (h c _ (Cert.KernelIdeal.Gen.mem_uc Cert.KernelIdeal.main_arg11 (by decide))).trans (Cert.KernelIdeal.Gen.W14_main_arg11 m ρ c)⟩
  · refine (θ_run Cert.ReferenceIdeal.defs _ _).mono (fun _ h c => ⟨(h c).1.trans (ref_eq m m' c (hagree c)), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
